-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S1024x4096 : Shape := ⟨2, ![1024, 4096]⟩
abbrev S4096 : Shape := ⟨1, ![4096]⟩
abbrev S4096x4096 : Shape := ⟨2, ![4096, 4096]⟩
abbrev S4096x1024 : Shape := ⟨2, ![4096, 1024]⟩
abbrev S1024 : Shape := ⟨1, ![1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024x4096 : S_.BroadcastsInDim S1024x4096 (![] : Fin 0 → Fin S1024x4096.rank)
  reducesTo_S1024x4096_S_d0_1 : S1024x4096.ReducesTo [0, 1] S_
  bcast_S_S4096 : S_.BroadcastsInDim S4096 (![] : Fin 0 → Fin S4096.rank)
  reducesTo_S4096_S_d0 : S4096.ReducesTo [0] S_
  bcast_S_S4096x4096 : S_.BroadcastsInDim S4096x4096 (![] : Fin 0 → Fin S4096x4096.rank)
  reducesTo_S4096x4096_S_d0_1 : S4096x4096.ReducesTo [0, 1] S_
  bcast_S_S4096x1024 : S_.BroadcastsInDim S4096x1024 (![] : Fin 0 → Fin S4096x1024.rank)
  reducesTo_S4096x1024_S_d0_1 : S4096x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S4096 .f32) (main_arg5 : FVec F S4096x1024 .f32) (main_arg6 : FVec F S1024 .f32) (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S4096x1024 .f32 := Host.absf main_arg5
  let main_cst_8 : FVec F S_ .f32 := constant S_ .f32 0x7F800000#32
  let main_v25 : FVec F S4096x1024 .f32 := broadcastInDim S4096x1024 ![] bcast_S_S4096x1024 main_cst_8
  let main_v26 : IVec S4096x1024 1 := cmpf .olt main_v24 main_v25
  let main_c_9 : IVec S_ 1 := constantI S_ 1 1#1
  let main_v27 : IVec S_ 1 := (fun x v => Host.reduce IntOp.andi x v reducesTo_S4096x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  main_v33

def fn {F : FTy → Type} [FloatOps F] (main_arg0 : FVec F S16384x1024 .f32) (main_arg1 : FVec F S1024x4096 .f32) (main_arg2 : FVec F S4096 .f32) (main_arg3 : FVec F S4096x4096 .f32) (main_arg4 : FVec F S4096 .f32) (main_arg5 : FVec F S4096x1024 .f32) (main_arg6 : FVec F S1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S1024x4096 .f32 := Host.absf main_arg1
  let main_cst_0 : FVec F S_ .f32 := constant S_ .f32 0x7F800000#32
  let main_v5 : FVec F S1024x4096 .f32 := broadcastInDim S1024x4096 ![] bcast_S_S1024x4096 main_cst_0
  let main_v6 : IVec S1024x4096 1 := cmpf .olt main_v4 main_v5
  let main_c_1 : IVec S_ 1 := constantI S_ 1 1#1
  let main_v7 : IVec S_ 1 := (fun x v => Host.reduce IntOp.andi x v reducesTo_S1024x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_arg4 main_arg5 main_arg6 main_v13 main_v16
-- ==== Kernel.lean ====
abbrev S16384x1024 : Shape := ⟨2, ![16384, 1024]⟩
abbrev S1024x4096 : Shape := ⟨2, ![1024, 4096]⟩
abbrev S4096 : Shape := ⟨1, ![4096]⟩
abbrev S4096x4096 : Shape := ⟨2, ![4096, 4096]⟩
abbrev S4096x1024 : Shape := ⟨2, ![4096, 1024]⟩
abbrev S1024 : Shape := ⟨1, ![1024]⟩
abbrev S1x4096 : Shape := ⟨2, ![1, 4096]⟩
abbrev S1x1024 : Shape := ⟨2, ![1, 1024]⟩
abbrev S1024x1024 : Shape := ⟨2, ![1024, 1024]⟩
abbrev S4096x512 : Shape := ⟨2, ![4096, 512]⟩
abbrev S1x512 : Shape := ⟨2, ![1, 512]⟩
abbrev S512x1024 : Shape := ⟨2, ![512, 1024]⟩
abbrev S512x4096 : Shape := ⟨2, ![512, 4096]⟩
abbrev S512x512 : Shape := ⟨2, ![512, 512]⟩

abbrev nBuf : Space → Nat
  | .hbm => 13
  | .vmem => 14
  | .smem => 0
  | _ => 0

abbrev bufTy : (tb : Table) → Fin (tcTables nBuf tb) → BufTy
  | .hbm, ⟨0, _⟩ => ⟨S16384x1024, .f32⟩
  | .hbm, ⟨1, _⟩ => ⟨S1024x4096, .f32⟩
  | .hbm, ⟨2, _⟩ => ⟨S4096, .f32⟩
  | .hbm, ⟨3, _⟩ => ⟨S4096x4096, .f32⟩
  | .hbm, ⟨4, _⟩ => ⟨S4096, .f32⟩
  | .hbm, ⟨5, _⟩ => ⟨S4096x1024, .f32⟩
  | .hbm, ⟨6, _⟩ => ⟨S1024, .f32⟩
  | .hbm, ⟨7, _⟩ => ⟨S1024x4096, .bf16⟩
  | .hbm, ⟨8, _⟩ => ⟨S4096x1024, .bf16⟩
  | .hbm, ⟨9, _⟩ => ⟨S1x4096, .f32⟩
  | .hbm, ⟨10, _⟩ => ⟨S1x4096, .f32⟩
  | .hbm, ⟨11, _⟩ => ⟨S1x1024, .f32⟩
  | .hbm, ⟨12, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x4096, .bf16⟩
  | .local _ .vmem, ⟨3, _⟩ => ⟨S1x4096, .f32⟩
  | .local _ .vmem, ⟨4, _⟩ => ⟨S4096x512, .f32⟩
  | .local _ .vmem, ⟨5, _⟩ => ⟨S4096x512, .f32⟩
  | .local _ .vmem, ⟨6, _⟩ => ⟨S1x512, .f32⟩
  | .local _ .vmem, ⟨7, _⟩ => ⟨S1x512, .f32⟩
  | .local _ .vmem, ⟨8, _⟩ => ⟨S512x1024, .bf16⟩
  | .local _ .vmem, ⟨9, _⟩ => ⟨S512x1024, .bf16⟩
  | .local _ .vmem, ⟨10, _⟩ => ⟨S1x1024, .f32⟩
  | .local _ .vmem, ⟨11, _⟩ => ⟨S1024x1024, .f32⟩
  | .local _ .vmem, ⟨12, _⟩ => ⟨S1024x1024, .f32⟩
  | .local _ .vmem, ⟨13, _⟩ => ⟨S1024x4096, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v0 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S4096x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

class Facts₀ : Prop where
  bitsLt_bf16_f32 : FTy.bits .bf16 < FTy.bits .f32
  shapeCasts_S4096_S1x4096 : S4096.ShapeCasts S1x4096
  shapeCasts_S1024_S1x1024 : S1024.ShapeCasts S1x1024
  inb_S1024x1024_S1024x1024_0_0 : ∀ a, (![0, 0] : Fin 2 → Nat) a + S1024x1024.size a ≤ S1024x1024.size a
  h_S1024x1024 : 0 < S1024x1024.numel
  inb_S1024x4096_S1024x1024_0_0 : ∀ a, (![0, 0] : Fin 2 → Nat) a + S1024x1024.size a ≤ S1024x4096.size a
  shapeCasts_S1024x1024_S1024x1024 : S1024x1024.ShapeCasts S1024x1024
  inb_S1x4096_S1x1024_0_0 : ∀ a, (![0, 0] : Fin 2 → Nat) a + S1x1024.size a ≤ S1x4096.size a
  h_S1x1024 : 0 < S1x1024.numel
  shapeCasts_S1x1024_S1x1024 : S1x1024.ShapeCasts S1x1024
  broadcasts_S1x1024_S1024x1024 : S1x1024.Broadcasts S1024x1024
  packedbf16_S1024x4096_S1024x1024_0_0 : (Rect.unit (s := S1024x4096) ![0, 0] S1024x1024.size inb_S1024x4096_S1024x1024_0_0).PackedRows (EltTy.packing .bf16)
  inb_S1024x4096_S1024x1024_0_1024 : ∀ a, (![0, 1024] : Fin 2 → Nat) a + S1024x1024.size a ≤ S1024x4096.size a
  inb_S1x4096_S1x1024_0_1024 : ∀ a, (![0, 1024] : Fin 2 → Nat) a + S1x1024.size a ≤ S1x4096.size a
  packedbf16_S1024x4096_S1024x1024_0_1024 : (Rect.unit (s := S1024x4096) ![0, 1024] S1024x1024.size inb_S1024x4096_S1024x1024_0_1024).PackedRows (EltTy.packing .bf16)
  inb_S1024x4096_S1024x1024_0_2048 : ∀ a, (![0, 2048] : Fin 2 → Nat) a + S1024x1024.size a ≤ S1024x4096.size a
  inb_S1x4096_S1x1024_0_2048 : ∀ a, (![0, 2048] : Fin 2 → Nat) a + S1x1024.size a ≤ S1x4096.size a
  packedbf16_S1024x4096_S1024x1024_0_2048 : (Rect.unit (s := S1024x4096) ![0, 2048] S1024x1024.size inb_S1024x4096_S1024x1024_0_2048).PackedRows (EltTy.packing .bf16)
  inb_S1024x4096_S1024x1024_0_3072 : ∀ a, (![0, 3072] : Fin 2 → Nat) a + S1024x1024.size a ≤ S1024x4096.size a
  inb_S1x4096_S1x1024_0_3072 : ∀ a, (![0, 3072] : Fin 2 → Nat) a + S1x1024.size a ≤ S1x4096.size a
  packedbf16_S1024x4096_S1024x1024_0_3072 : (Rect.unit (s := S1024x4096) ![0, 3072] S1024x1024.size inb_S1024x4096_S1024x1024_0_3072).PackedRows (EltTy.packing .bf16)
  inb_S1x1024_S1x1024_0_0 : ∀ a, (![0, 0] : Fin 2 → Nat) a + S1x1024.size a ≤ S1x1024.size a
  inb_S4096x512_S4096x512_0_0 : ∀ a, (![0, 0] : Fin 2 → Nat) a + S4096x512.size a ≤ S4096x512.size a
  h_S4096x512 : 0 < S4096x512.numel
  inb_S1024x4096_S512x4096_0_0 : ∀ a, (![0, 0] : Fin 2 → Nat) a + S512x4096.size a ≤ S1024x4096.size a
  h_S512x4096 : 0 < S512x4096.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  inb_S1024x1024_S512x1024_0_0 : ∀ a, (![0, 0] : Fin 2 → Nat) a + S512x1024.size a ≤ S1024x1024.size a
  h_S512x1024 : 0 < S512x1024.numel
  shapeCasts_S512x1024_S512x1024 : S512x1024.ShapeCasts S512x1024
  inb_S512x1024_S512x1024_0_0 : ∀ a, (![0, 0] : Fin 2 → Nat) a + S512x1024.size a ≤ S512x1024.size a
  inb_S1024x4096_S512x4096_512_0 : ∀ a, (![512, 0] : Fin 2 → Nat) a + S512x4096.size a ≤ S1024x4096.size a
  inb_S1024x1024_S512x1024_512_0 : ∀ a, (![512, 0] : Fin 2 → Nat) a + S512x1024.size a ≤ S1024x1024.size a
  dot_S1024x1024_S1024x1024_S1024x1024_1_0_0_1_n_n_wf : DotDims.WF S1024x1024 S1024x1024 S1024x1024 [1] [0] [0] [1] [] []
  dot_S512x4096_S4096x512_S512x512_1_0_0_1_n_n_wf : DotDims.WF S512x4096 S4096x512 S512x512 [1] [0] [0] [1] [] []
  dot_S512x512_S512x1024_S512x1024_1_0_0_1_n_n_wf : DotDims.WF S512x512 S512x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x1024.size a
  hwx0_0 : ∀ i : grid0.Coords, EltTy.bits .f32 = 32 ∨ (Rect.block (s := S16384x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x4096.size a ≤ S1024x4096.size a
  hwx0_1 : ∀ i : grid0.Coords, EltTy.bits .bf16 = 32 ∨ (Rect.block (s := S1024x4096) S1024x4096.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .f32 = 32 ∨ (Rect.block (s := S1x4096) S1x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x512.size a ≤ S4096x4096.size a
  hwx0_3 : ∀ i : grid0.Coords, EltTy.bits .f32 = 32 ∨ (Rect.block (s := S4096x4096) S4096x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x4096.size a
  hwx0_4 : ∀ i : grid0.Coords, EltTy.bits .f32 = 32 ∨ (Rect.block (s := S1x4096) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S4096x1024.size a
  hwx0_5 : ∀ i : grid0.Coords, EltTy.bits .bf16 = 32 ∨ (Rect.block (s := S4096x1024) S512x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x1024.size a ≤ S16384x1024.size a
  hwx0_7 : ∀ i : grid0.Coords, EltTy.bits .f32 = 32 ∨ (Rect.block (s := S16384x1024) S1024x1024.size (cc0_transform_7 i) (hinb0_7 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S512x4096_S4096x512_S512x512_1_0_0_1_n_n : DotDims S512x4096 S4096x512 S512x512 where
  lhsContracting := [1]
  rhsContracting := [0]
  lhsNonContracting := [0]
  rhsNonContracting := [1]
  lhsBatch := []
  rhsBatch := []
  wf := dot_S512x4096_S4096x512_S512x512_1_0_0_1_n_n_wf
def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v0) S1024x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v2) S1x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S4096x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_call0_v3) S1x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_call0_v1) S512x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_call0_v4) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0) S1024x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S1024x4096 : Shape := ⟨2, ![1024, 4096]⟩
abbrev S4096 : Shape := ⟨1, ![4096]⟩
abbrev S4096x4096 : Shape := ⟨2, ![4096, 4096]⟩
abbrev S4096x1024 : Shape := ⟨2, ![4096, 1024]⟩
abbrev S1024 : Shape := ⟨1, ![1024]⟩
abbrev S16384x4096 : Shape := ⟨2, ![16384, 4096]⟩
abbrev S1x4096 : Shape := ⟨2, ![1, 4096]⟩
abbrev S_ : Shape := ⟨0, ![]⟩
abbrev S1x1024 : Shape := ⟨2, ![1, 1024]⟩

abbrev nBuf : Space → Nat
  | .hbm => 27
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x4096, .f32⟩
  | .hbm, ⟨2, _⟩ => ⟨S4096, .f32⟩
  | .hbm, ⟨3, _⟩ => ⟨S4096x4096, .f32⟩
  | .hbm, ⟨4, _⟩ => ⟨S4096, .f32⟩
  | .hbm, ⟨5, _⟩ => ⟨S4096x1024, .f32⟩
  | .hbm, ⟨6, _⟩ => ⟨S1024, .f32⟩
  | .hbm, ⟨7, _⟩ => ⟨S16384x1024, .f32⟩
  | .hbm, ⟨8, _⟩ => ⟨S16384x4096, .f32⟩
  | .hbm, ⟨9, _⟩ => ⟨S1x4096, .f32⟩
  | .hbm, ⟨10, _⟩ => ⟨S16384x4096, .f32⟩
  | .hbm, ⟨11, _⟩ => ⟨S16384x4096, .f32⟩
  | .hbm, ⟨12, _⟩ => ⟨S_, .f32⟩
  | .hbm, ⟨13, _⟩ => ⟨S16384x4096, .f32⟩
  | .hbm, ⟨14, _⟩ => ⟨S16384x4096, .f32⟩
  | .hbm, ⟨15, _⟩ => ⟨S16384x4096, .f32⟩
  | .hbm, ⟨16, _⟩ => ⟨S1x4096, .f32⟩
  | .hbm, ⟨17, _⟩ => ⟨S16384x4096, .f32⟩
  | .hbm, ⟨18, _⟩ => ⟨S16384x4096, .f32⟩
  | .hbm, ⟨19, _⟩ => ⟨S_, .f32⟩
  | .hbm, ⟨20, _⟩ => ⟨S16384x4096, .f32⟩
  | .hbm, ⟨21, _⟩ => ⟨S16384x4096, .f32⟩
  | .hbm, ⟨22, _⟩ => ⟨S16384x1024, .f32⟩
  | .hbm, ⟨23, _⟩ => ⟨S1x1024, .f32⟩
  | .hbm, ⟨24, _⟩ => ⟨S16384x1024, .f32⟩
  | .hbm, ⟨25, _⟩ => ⟨S16384x1024, .f32⟩
  | .hbm, ⟨26, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_cst : Ref sig .tc := ⟨.hbm, 12, rfl⟩
abbrev main_call0_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_call1_cst : Ref sig .tc := ⟨.hbm, 19, rfl⟩
abbrev main_call1_v0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S16384x4096_0_1 : S1x4096.BroadcastsInDim S16384x4096 (![0, 1] : Fin 2 → Fin S16384x4096.rank)
  bcast_S_S16384x4096 : S_.BroadcastsInDim S16384x4096 (![] : Fin 0 → Fin S16384x4096.rank)
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  dot_S16384x1024_S1024x4096_S16384x4096_1_0_0_1_n_n_wf : DotDims.WF S16384x1024 S1024x4096 S16384x4096 [1] [0] [0] [1] [] []
  dot_S16384x4096_S4096x4096_S16384x4096_1_0_0_1_n_n_wf : DotDims.WF S16384x4096 S4096x4096 S16384x4096 [1] [0] [0] [1] [] []
  dot_S16384x4096_S4096x1024_S16384x1024_1_0_0_1_n_n_wf : DotDims.WF S16384x4096 S4096x1024 S16384x1024 [1] [0] [0] [1] [] []

variable [Facts₀]

def dot_S16384x1024_S1024x4096_S16384x4096_1_0_0_1_n_n : DotDims S16384x1024 S1024x4096 S16384x4096 where
  lhsContracting := [1]
  rhsContracting := [0]
  lhsNonContracting := [0]
  rhsNonContracting := [1]
  lhsBatch := []
  rhsBatch := []
  wf := dot_S16384x1024_S1024x4096_S16384x4096_1_0_0_1_n_n_wf
def dot_S16384x4096_S4096x4096_S16384x4096_1_0_0_1_n_n : DotDims S16384x4096 S4096x4096 S16384x4096 where
  lhsContracting := [1]
  rhsContracting := [0]
  lhsNonContracting := [0]
  rhsNonContracting := [1]
  lhsBatch := []
  rhsBatch := []
  wf := dot_S16384x4096_S4096x4096_S16384x4096_1_0_0_1_n_n_wf
def dot_S16384x4096_S4096x1024_S16384x1024_1_0_0_1_n_n : DotDims S16384x4096 S4096x1024 S16384x1024 where
  lhsContracting := [1]
  rhsContracting := [0]
  lhsNonContracting := [0]
  rhsNonContracting := [1]
  lhsBatch := []
  rhsBatch := []
  wf := dot_S16384x4096_S4096x1024_S16384x1024_1_0_0_1_n_n_wf

class Facts : Prop extends Facts₀ where

variable [Facts]
-- ==== Proof.Spec.lean ====
/-
  What both programs compute, written once as functions of the seven argument arrays: a three-layer
  perceptron with a residual connection over the extended reals,

    out r c = x r c + ( Σ_k h2 r k · W3 k c + b3 c ),
    h2 r k  = max ( Σ_l h1 r l · W2 l k + b2 k ) 0,
    h1 r l  = max ( Σ_p (x r p + x r p) · W1 p l + b1 l ) 0        (`refOut`, the reference's arrangement).

  The kernel arranges the same numbers differently (`kerOut`): it doubles the input by the factor 2
  instead of adding it to itself, starts the result at x r c + b3 c, and adds the last layer's products in
  eight tiles of 512 consecutive hidden units each.  `hidK` and `stepK` are the two pieces of that
  arrangement on a block of rows: the first hidden layer of the block, and one tile's contribution added
  to a running result.
-/
import Idealize.ShloMosaic.PureOps.Ideal
import Idealize.ShloMosaic.Lib.ValueIdx

noncomputable section

namespace Cert.Mlp

open Idealize.ShloMosaic Idealize.ShloMosaic.ValueIdx

/-- A matrix of extended reals with `a` rows and `b` columns, indexed as the programs index a two-axis array. -/
abbrev Mat (a b : Nat) : Type := (⟨2, ![a, b]⟩ : Shape).Idx → EReal

/-- A vector of extended reals with `a` entries. -/
abbrev Row (a : Nat) : Type := (⟨1, ![a]⟩ : Shape).Idx → EReal

/-- The matrix whose entry (r, c) is `f r c`. -/
def mat {a b : Nat} (f : Fin a → Fin b → EReal) : Mat a b := fun i => f (i 0) (i 1)

theorem mat_apply {a b : Nat} (f : Fin a → Fin b → EReal) (r : Fin a) (c : Fin b) : mat f (ix2 r c) = f r c := rfl

/-- The float word `+0.0`, which both programs take their maxima against. -/
abbrev zeroW : EReal := Ideal.ofBits .f32 0x00000000#32

/-- The float word `2.0`, the kernel's doubling factor. -/
abbrev twoW : EReal := Ideal.ofBits .f32 0x40000000#32

/-! ## Where a block's entries sit in the whole arrays -/

/-- Row `r` of the `i`-th block of 1024 rows. -/
def rowAt (i : ℕ) (hi : i < 16) (r : Fin 1024) : Fin 16384 := ⟨1024 * i + r.val, by have := r.isLt; omega⟩

/-- Hidden unit `k` of the `j`-th tile of 512 hidden units. -/
def colAt (j : ℕ) (hj : j < 8) (k : Fin 512) : Fin 4096 := ⟨j * 512 + k.val, by have := k.isLt; omega⟩

theorem rowAt_val (i : ℕ) (hi : i < 16) (r : Fin 1024) : (rowAt i hi r).val = 1024 * i + r.val := rfl

theorem colAt_val (j : ℕ) (hj : j < 8) (k : Fin 512) : (colAt j hj k).val = j * 512 + k.val := rfl

/-! ## On a block of rows: what the kernel's two control cases compute -/

/-- The first hidden layer of a block of `A` rows, from the doubled inputs:
    entry (r, l) is max (Σ_p (2 · x r p) · w1 p l + b1 l) 0. -/
def hidK {A : Nat} (x : Mat A 1024) (w1 : Mat 1024 4096) (b1 : Mat 1 4096) (r : Fin A) (l : Fin 4096) : EReal :=
  max ((∑ p : Fin 1024, (twoW * x (ix2 r p)) * w1 (ix2 p l)) + b1 (ix2 0 l)) zeroW

/-- One tile of 512 hidden units of the second layer, pushed through the matching 512 rows of the third layer's
    weights and added to a running result: entry (r, c) is
    acc r c + Σ_k max (Σ_l h r l · w2 l k + b2 k) 0 · w3 k c. -/
def stepK {A : Nat} (acc : Mat A 1024) (h : Mat A 4096) (w2 : Mat 4096 512) (b2 : Mat 1 512) (w3 : Mat 512 1024)
    (r : Fin A) (c : Fin 1024) : EReal :=
  acc (ix2 r c) + ∑ k : Fin 512, max ((∑ l : Fin 4096, h (ix2 r l) * w2 (ix2 l k)) + b2 (ix2 0 k)) zeroW * w3 (ix2 k c)

/-! ## On the whole arrays -/

section Whole

variable (X : Mat 16384 1024) (W1 : Mat 1024 4096) (B1 : Row 4096) (W2 : Mat 4096 4096) (B2 : Row 4096)
  (W3 : Mat 4096 1024) (B3 : Row 1024)

/-- The reference's first hidden layer. -/
def refH1 (r : Fin 16384) (l : Fin 4096) : EReal :=
  max ((∑ p : Fin 1024, (X (ix2 r p) + X (ix2 r p)) * W1 (ix2 p l)) + B1 (ix1 l)) zeroW

/-- The reference's second hidden layer. -/
def refH2 (r : Fin 16384) (k : Fin 4096) : EReal :=
  max ((∑ l : Fin 4096, refH1 X W1 B1 r l * W2 (ix2 l k)) + B2 (ix1 k)) zeroW

/-- The reference's result. -/
def refOut : Mat 16384 1024 :=
  mat fun r c => X (ix2 r c) + ((∑ k : Fin 4096, refH2 X W1 B1 W2 B2 r k * W3 (ix2 k c)) + B3 (ix1 c))

/-- The kernel's first hidden layer: the input doubled by the factor 2. -/
def kerH1 (r : Fin 16384) (l : Fin 4096) : EReal :=
  max ((∑ p : Fin 1024, (twoW * X (ix2 r p)) * W1 (ix2 p l)) + B1 (ix1 l)) zeroW

/-- Hidden unit `q` of the kernel's second layer at row `r`, times the third layer's weight towards output
    column `c`; zero past the last hidden unit (the position is a natural number so that tiles can be added up
    by position). -/
def kerTerm (r : Fin 16384) (c : Fin 1024) (q : ℕ) : EReal :=
  if h : q < 4096 then
    max ((∑ l : Fin 4096, kerH1 X W1 B1 r l * W2 (ix2 l ⟨q, h⟩)) + B2 (ix1 ⟨q, h⟩)) zeroW * W3 (ix2 ⟨q, h⟩ c)
  else 0

/-- The kernel's running result after tiles 0 … j of hidden units. -/
def kerPartial (j : ℕ) (r : Fin 16384) (c : Fin 1024) : EReal :=
  (X (ix2 r c) + B3 (ix1 c)) + ∑ s ∈ Finset.range (j + 1), ∑ k : Fin 512, kerTerm X W1 B1 W2 B2 W3 r c (s * 512 + k.val)

/-- The kernel's result: all eight tiles added. -/
def kerOut : Mat 16384 1024 := mat fun r c => kerPartial X W1 B1 W2 B2 W3 B3 7 r c

end Whole

end Cert.Mlp

end
-- ==== Proof.LibPlainDot.lean ====
/-
  A plain matrix product read at an entry.

  A contraction whose dimension numbers say "the second axis of an [A, K] operand against the first axis of a [K, B]
  operand, no batch axis, result [A, B]" reads its left operand at (row of the result, k) and its right operand at
  (k, column of the result), `k` ranging over the one contracted axis.  So the sum over the contraction index of the
  operands' products, at result entry (p, c), is `Σ_{k < K} l (p, k) · r (k, c)`; a `tpu.matmul` into the zero splat
  is exactly that sum at the ideal values.  Generic in A, K, B and in the record: the hypotheses are the record's six lists.
-/
import Idealize.ShloMosaic.PureOps.Ideal.Laws
import Idealize.ShloMosaic.Lib.ValueIdx

noncomputable section

namespace Cert.LibPlainDot

open Idealize.ShloMosaic Idealize.ShloMosaic.ValueIdx

/-- The dimension numbers of a plain product `[A, K] × [K, B] → [A, B]`. -/
structure Plain {A K B : Nat} (D : DotDims ⟨2, ![A, K]⟩ ⟨2, ![K, B]⟩ ⟨2, ![A, B]⟩) : Prop where
  lc : D.lhsContracting = [1]
  rc : D.rhsContracting = [0]
  ln : D.lhsNonContracting = [0]
  rn : D.rhsNonContracting = [1]
  lb : D.lhsBatch = []
  rb : D.rhsBatch = []

variable {A K B : Nat} {D : DotDims ⟨2, ![A, K]⟩ ⟨2, ![K, B]⟩ ⟨2, ![A, B]⟩}

/-- One axis is contracted. -/
theorem Plain.rank (h : Plain D) : D.contr.rank = 1 := by rw [D.rank_contr, h.lc]; rfl

/-- Its extent is `K`. -/
theorem Plain.size (h : Plain D) : D.contr.size ⟨0, by rw [h.rank]; exact Nat.one_pos⟩ = K := by
  rw [D.size_contr 0 (by rw [h.lc]; exact Nat.one_pos)]
  simp only [h.lc, List.getElem_cons_zero]
  rfl

/-- The left operand is read at the result's row … -/
theorem Plain.lhs0 (h : Plain D) (j : (⟨2, ![A, B]⟩ : Shape).Idx) (q : D.contr.Idx) : (D.lhsIdx j q 0).val = (j 0).val := by
  unfold DotDims.lhsIdx
  rw [dif_neg (by rw [h.lb]; exact List.not_mem_nil), dif_pos (by rw [h.ln]; exact List.mem_singleton.mpr rfl)]
  simp only [Fin.val_cast]
  have key : ∀ (a b : Nat) (ha : a < (⟨2, ![A, B]⟩ : Shape).rank) (hb : b < (⟨2, ![A, B]⟩ : Shape).rank), a = b →
      (j ⟨a, ha⟩).val = (j ⟨b, hb⟩).val := fun a b ha hb e => by subst e; rfl
  exact key _ _ _ _ (by simp [h.lb, h.ln])

/-- … and the contraction position, -/
theorem Plain.lhs1 (h : Plain D) (j : (⟨2, ![A, B]⟩ : Shape).Idx) (q : D.contr.Idx) :
    (D.lhsIdx j q 1).val = (q ⟨0, by rw [h.rank]; exact Nat.one_pos⟩).val :=
  D.lhsIdx_val_of_single h.lc j q

/-- the right operand at the contraction position … -/
theorem Plain.rhs0 (h : Plain D) (j : (⟨2, ![A, B]⟩ : Shape).Idx) (q : D.contr.Idx) :
    (D.rhsIdx j q 0).val = (q ⟨0, by rw [h.rank]; exact Nat.one_pos⟩).val :=
  D.rhsIdx_val_of_single h.rc j q

/-- … and the result's column. -/
theorem Plain.rhs1 (h : Plain D) (j : (⟨2, ![A, B]⟩ : Shape).Idx) (q : D.contr.Idx) : (D.rhsIdx j q 1).val = (j 1).val := by
  unfold DotDims.rhsIdx
  rw [dif_neg (by rw [h.rb]; exact List.not_mem_nil), dif_pos (by rw [h.rn]; exact List.mem_singleton.mpr rfl)]
  simp only [Fin.val_cast]
  have key : ∀ (a b : Nat) (ha : a < (⟨2, ![A, B]⟩ : Shape).rank) (hb : b < (⟨2, ![A, B]⟩ : Shape).rank), a = b →
      (j ⟨a, ha⟩).val = (j ⟨b, hb⟩).val := fun a b ha hb e => by subst e; rfl
  exact key _ _ _ _ (by simp [h.lb, h.ln, h.rn])

/-- The contraction sum at result entry `(p, c)` is `Σ_k l (p, k) · r (k, c)`. -/
theorem Plain.sum_eq (h : Plain D) (l : (⟨2, ![A, K]⟩ : Shape).Idx → EReal) (r : (⟨2, ![K, B]⟩ : Shape).Idx → EReal)
    (p : Fin A) (c : Fin B) :
    ∑ q : D.contr.Idx, l (D.lhsIdx (ix2 p c) q) * r (D.rhsIdx (ix2 p c) q) = ∑ k : Fin K, l (ix2 p k) * r (ix2 k c) := by
  rw [← Equiv.sum_comp (contrEquiv1 D K h.rank h.size).symm]
  refine Finset.sum_congr rfl fun k _ => ?_
  have hk := contrEquiv1_symm_val D K h.rank h.size k
  have el : D.lhsIdx (ix2 p c) ((contrEquiv1 D K h.rank h.size).symm k) = ix2 p k := funext fun a => Fin.ext (by
    match a with
    | ⟨0, _⟩ => exact h.lhs0 _ _
    | ⟨1, _⟩ => exact (h.lhs1 _ _).trans hk)
  have er : D.rhsIdx (ix2 p c) ((contrEquiv1 D K h.rank h.size).symm k) = ix2 k c := funext fun a => Fin.ext (by
    match a with
    | ⟨0, _⟩ => exact (h.rhs0 _ _).trans hk
    | ⟨1, _⟩ => exact h.rhs1 _ _)
  rw [el, er]

/-- A `tpu.matmul` of such dimension numbers into the zero accumulator, at the ideal values, read at `(p, c)`. -/
theorem Plain.matmul_zero_apply (h : Plain D) (prec : Option ContractPrecision)
    (l : FVec Ideal ⟨2, ![A, K]⟩ .f32) (r : FVec Ideal ⟨2, ![K, B]⟩ .f32) (p : Fin A) (c : Fin B) :
    FloatOps.matmul D prec l r (constant ⟨2, ![A, B]⟩ .f32 0x00000000#32) (ix2 p c) = ∑ k : Fin K, l (ix2 p k) * r (ix2 k c) :=
  (Ideal.matmul_constant_zero_apply D prec l r (ix2 p c)).trans (h.sum_eq l r p c)

/-- A host `dot_general` of such dimension numbers, at the ideal values, read at `(p, c)`. -/
theorem Plain.dotGeneral_apply (h : Plain D) (prec : Option ContractPrecision) (sched : HostSchedule)
    (l : FVec Ideal ⟨2, ![A, K]⟩ .f32) (r : FVec Ideal ⟨2, ![K, B]⟩ .f32) (p : Fin A) (c : Fin B) :
    FloatOps.dotGeneral D prec sched l r (ix2 p c) = ∑ k : Fin K, l (ix2 p k) * r (ix2 k c) :=
  (Ideal.dotGeneral_apply D prec sched l r (ix2 p c)).trans (h.sum_eq l r p c)

end Cert.LibPlainDot

end
-- ==== Proof.LibPlainDotFormats.lean ====
/-
  A plain matrix product `[A, K] × [K, B] → [A, B]` into the zero accumulator read at an entry, for operands of ANY
  float formats: over the extended reals a format only names the set the entries came from, so the sum
  `Σ_{k < K} l (p, k) · r (k, c)` is the same whatever the two formats are.
-/
import proofs.«162766_g14912126452479_cont_week2b_829_36_alg».proof.Proof.LibPlainDot

noncomputable section

namespace Cert.LibPlainDot

open Idealize.ShloMosaic Idealize.ShloMosaic.ValueIdx

variable {A K B : Nat} {D : DotDims ⟨2, ![A, K]⟩ ⟨2, ![K, B]⟩ ⟨2, ![A, B]⟩}

/-- A `tpu.matmul` of plain dimension numbers into the zero accumulator, at the ideal values, read at `(p, c)`,
    whatever the operands' formats. -/
theorem Plain.matmul_zero_apply_formats (h : Plain D) (prec : Option ContractPrecision) {φ₁ φ₂ : FTy}
    (l : FVec Ideal ⟨2, ![A, K]⟩ φ₁) (r : FVec Ideal ⟨2, ![K, B]⟩ φ₂) (p : Fin A) (c : Fin B) :
    FloatOps.matmul D prec l r (constant ⟨2, ![A, B]⟩ .f32 0x00000000#32) (ix2 p c) = ∑ k : Fin K, l (ix2 p k) * r (ix2 k c) :=
  (Ideal.matmul_constant_zero_apply D prec l r (ix2 p c)).trans (h.sum_eq l r p c)

end Cert.LibPlainDot

end
-- ==== Proof.Payloads.lean ====
/-
  The arithmetic of the kernel body, entry by entry over the extended reals.

  The body has three kinds of value.  A DENSE LAYER WITH RECTIFIER: a matrix product into the zero accumulator, a
  bias row spread down the rows, and the maximum with zero — at entry (p, c) it is
  max (Σ_k l p k · r k c + b c) 0.  The RESIDUAL START x + b3.  And an ACCUMULATING PRODUCT acc + l · r.  A change of
  float format is the identity on the extended reals, and a cast of a shape to itself changes nothing.
-/
import proofs.«162766_g14912126452479_cont_week2b_829_36_alg».proof.Proof.Gen.KernelIdeal.Skeleton
import proofs.«162766_g14912126452479_cont_week2b_829_36_alg».proof.Proof.Spec
import proofs.«162766_g14912126452479_cont_week2b_829_36_alg».proof.Proof.LibPlainDotFormats
import Idealize.ShloMosaic.Lib.Pipeline.Value
import Idealize.ShloMosaic.Lib.ValueLayout
import Idealize.ShloMosaic.Lib.ValueIdx

noncomputable section

namespace Cert.KernelIdeal.Pay

open Cert.KernelIdeal Cert.KernelIdeal.Gen Cert.Mlp Cert.LibPlainDot
open Idealize.ShloMosaic Idealize.ShloMosaic.ValueIdx

/-! ## The three contractions are plain matrix products -/

theorem plain_in : Plain dot_S1024x1024_S1024x1024_S1024x1024_1_0_0_1_n_n := ⟨rfl, rfl, rfl, rfl, rfl, rfl⟩
theorem plain_mid : Plain dot_S512x4096_S4096x512_S512x512_1_0_0_1_n_n := ⟨rfl, rfl, rfl, rfl, rfl, rfl⟩
theorem plain_out : Plain dot_S512x512_S512x1024_S512x1024_1_0_0_1_n_n := ⟨rfl, rfl, rfl, rfl, rfl, rfl⟩

/-! ## The generic pieces -/

/-- A product into the zero accumulator plus a bias row, rectified: entry (p, c) is
    max (Σ_k l p k · r k c + b c) 0. -/
theorem dense_relu_apply {A K B : Nat} {D : DotDims ⟨2, ![A, K]⟩ ⟨2, ![K, B]⟩ ⟨2, ![A, B]⟩} (hD : Plain D) {φ₁ φ₂ : FTy}
    (l : FVec Ideal ⟨2, ![A, K]⟩ φ₁) (r : FVec Ideal ⟨2, ![K, B]⟩ φ₂) (b : FVec Ideal ⟨2, ![1, B]⟩ .f32)
    (hb : (⟨2, ![1, B]⟩ : Shape).Broadcasts ⟨2, ![A, B]⟩) (p : Fin A) (c : Fin B) :
    maximumf (addf (matmul D none l r (constant ⟨2, ![A, B]⟩ .f32 0x00000000#32)) (broadcastTo ⟨2, ![A, B]⟩ b hb))
        (broadcast ⟨2, ![A, B]⟩ (Scalar.ofBits (F := Ideal) .f32 0x00000000#32)) (ix2 p c)
      = max ((∑ k : Fin K, l (ix2 p k) * r (ix2 k c)) + b (ix2 0 c)) zeroW := by
  show max (FloatOps.matmul D none l r (constant ⟨2, ![A, B]⟩ .f32 0x00000000#32) (ix2 p c)
      + broadcastTo ⟨2, ![A, B]⟩ b hb (ix2 p c)) zeroW = _
  rw [hD.matmul_zero_apply_formats, broadcastTo_1b_ab_apply]

/-! ## The payloads -/

/-- The doubled input. -/
theorem pay2_apply (v37 : Vec Ideal S1024x1024 .f32) (r p : Fin 1024) :
    k0_pay2 (F := Ideal) v37 (ix2 r p) = twoW * v37 (ix2 r p) := rfl

/-- A column block of the first hidden layer. -/
theorem pay3_apply (v37 : Vec Ideal S1024x1024 .f32) (v41 : Vec Ideal S1024x1024 .bf16) (v44 : Vec Ideal S1x1024 .f32)
    (r l : Fin 1024) :
    k0_pay3 (F := Ideal) v37 v41 v44 (ix2 r l)
      = max ((∑ p : Fin 1024, (twoW * v37 (ix2 r p)) * v41 (ix2 p l)) + v44 (ix2 0 l)) zeroW := by
  unfold k0_pay3
  simp only [shapeCast_self]
  exact dense_relu_apply plain_in (k0_pay2 (F := Ideal) v37) v41 v44 _ r l

/-- The next column block of the first hidden layer: the same function of its own loads. -/
theorem pay4_apply (v37 : Vec Ideal S1024x1024 .f32) (v54 : Vec Ideal S1024x1024 .bf16) (v57 : Vec Ideal S1x1024 .f32)
    (r l : Fin 1024) :
    k0_pay4 (F := Ideal) v37 v54 v57 (ix2 r l)
      = max ((∑ p : Fin 1024, (twoW * v37 (ix2 r p)) * v54 (ix2 p l)) + v57 (ix2 0 l)) zeroW := by
  unfold k0_pay4
  simp only [shapeCast_self]
  exact dense_relu_apply plain_in (k0_pay2 (F := Ideal) v37) v54 v57 _ r l

/-- The third column block's product, before its bias. -/
theorem pay5_apply (v37 : Vec Ideal S1024x1024 .f32) (v67 : Vec Ideal S1024x1024 .bf16) (r l : Fin 1024) :
    k0_pay5 (F := Ideal) v37 v67 (ix2 r l) = ∑ p : Fin 1024, (twoW * v37 (ix2 r p)) * v67 (ix2 p l) := by
  unfold k0_pay5
  simp only [shapeCast_self]
  exact plain_in.matmul_zero_apply_formats none (k0_pay2 (F := Ideal) v37) v67 r l

/-- The third column block: bias and rectifier on that product. -/
theorem pay6_apply (v69 : FVec Ideal S1024x1024 .f32) (v70 : Vec Ideal S1x1024 .f32) (r l : Fin 1024) :
    k0_pay6 (F := Ideal) v69 v70 (ix2 r l) = max (v69 (ix2 r l) + v70 (ix2 0 l)) zeroW := by
  unfold k0_pay6
  simp only [shapeCast_self]
  show max (v69 (ix2 r l) + broadcastTo S1024x1024 v70 _ (ix2 r l)) zeroW = _
  rw [broadcastTo_1b_ab_apply]

/-- The fourth column block, from the doubled input already in hand. -/
theorem pay7_apply (v40 : FVec Ideal S1024x1024 .bf16) (v80 : Vec Ideal S1024x1024 .bf16) (v83 : Vec Ideal S1x1024 .f32)
    (r l : Fin 1024) :
    k0_pay7 (F := Ideal) v40 v80 v83 (ix2 r l)
      = max ((∑ p : Fin 1024, v40 (ix2 r p) * v80 (ix2 p l)) + v83 (ix2 0 l)) zeroW := by
  unfold k0_pay7
  simp only [shapeCast_self]
  exact dense_relu_apply plain_in v40 v80 v83 _ r l

/-- The residual start: the input plus the last bias. -/
theorem pay8_apply (v93 : Vec Ideal S1024x1024 .f32) (v94 : Vec Ideal S1x1024 .f32) (r c : Fin 1024) :
    k0_pay8 (F := Ideal) v93 v94 (ix2 r c) = v93 (ix2 r c) + v94 (ix2 0 c) := by
  unfold k0_pay8
  simp only [shapeCast_self]
  show v93 (ix2 r c) + broadcastTo S1024x1024 v94 _ (ix2 r c) = _
  rw [broadcastTo_1b_ab_apply]

/-- The second layer's weight tile, in the narrower format: the same numbers. -/
theorem pay9_apply (v3 : Vec Ideal S4096x512 .f32) (l : Fin 4096) (k : Fin 512) :
    k0_pay9 (F := Ideal) v3 (ix2 l k) = v3 (ix2 l k) := rfl

/-- A half block's rectified second-layer tile. -/
theorem pay11_apply (v3 : Vec Ideal S4096x512 .f32) (v21 : Vec Ideal S512x4096 .bf16) (v23 : Vec Ideal S1x512 .f32)
    (p k : Fin 512) :
    k0_pay11 (F := Ideal) v3 v21 v23 (ix2 p k)
      = max ((∑ l : Fin 4096, v21 (ix2 p l) * v3 (ix2 l k)) + v23 (ix2 0 k)) zeroW := by
  unfold k0_pay11
  simp only [shapeCast_self]
  exact dense_relu_apply plain_mid v21 (k0_pay9 (F := Ideal) v3) v23 _ p k

/-- A half block's running result plus the tile pushed through the third layer's weights. -/
theorem pay1_apply (v29 : FVec Ideal S512x512 .bf16) (v30 : Vec Ideal S512x1024 .f32) (v32 : Vec Ideal S512x1024 .bf16)
    (p : Fin 512) (c : Fin 1024) :
    k0_pay1 (F := Ideal) v29 v30 v32 (ix2 p c) = v30 (ix2 p c) + ∑ k : Fin 512, v29 (ix2 p k) * v32 (ix2 k c) := by
  unfold k0_pay1
  simp only [shapeCast_self]
  show v30 (ix2 p c) + FloatOps.matmul _ none v29 v32 (constant S512x1024 .f32 0x00000000#32) (ix2 p c) = _
  rw [plain_out.matmul_zero_apply_formats]

/-- The lower half block's step: one tile's contribution added to the running result. -/
theorem pay1_pay11_apply (v3 : Vec Ideal S4096x512 .f32) (v21 : Vec Ideal S512x4096 .bf16) (v23 : Vec Ideal S1x512 .f32)
    (v30 : Vec Ideal S512x1024 .f32) (v32 : Vec Ideal S512x1024 .bf16) (p : Fin 512) (c : Fin 1024) :
    k0_pay1 (F := Ideal) (k0_pay11 (F := Ideal) v3 v21 v23) v30 v32 (ix2 p c) = stepK v30 v21 v3 v23 v32 p c := by
  rw [pay1_apply]
  unfold stepK
  simp only [pay11_apply]

/-- The upper half block's step: the same function. -/
theorem pay10_apply (v3 : Vec Ideal S4096x512 .f32) (v5 : Vec Ideal S512x4096 .bf16) (v7 : Vec Ideal S1x512 .f32)
    (v14 : Vec Ideal S512x1024 .f32) (v16 : Vec Ideal S512x1024 .bf16) (p : Fin 512) (c : Fin 1024) :
    k0_pay10 (F := Ideal) v3 v5 v7 v14 v16 (ix2 p c) = stepK v14 v5 v3 v7 v16 p c := by
  have e : k0_pay10 (F := Ideal) v3 v5 v7 v14 v16 = k0_pay1 (F := Ideal) (k0_pay11 (F := Ideal) v3 v5 v7) v14 v16 := rfl
  rw [e, pay1_pay11_apply]

end Cert.KernelIdeal.Pay

end
-- ==== Proof.Rects.lean ====
/-
  Unit-stride rectangles of a two-axis array, entry by entry: entry (r, l) of the rectangle that starts at
  (o0, o1) sits at (o0 + r, o1 + l) of the array, so a load through the rectangle reads the array there, and an
  entry of the array lies in the rectangle exactly when both its coordinates lie in the rectangle's ranges.
-/
import Idealize.ShloMosaic.Lib.Pipeline.Value
import Idealize.ShloMosaic.Lib.ValueIdx

noncomputable section

namespace Cert.Mlp.Rects

open Idealize.ShloMosaic Idealize.ShloMosaic.ValueIdx

/-- Entry (r, l) of a rectangle starting at (o0, o1) sits at (R, L) of the array when R = o0 + r and L = o1 + l. -/
theorem emb_unit_ix2 {n0 n1 m0 m1 : Nat} (o0 o1 : Nat)
    (inb : ∀ a, (![o0, o1] : Fin 2 → Nat) a + (![m0, m1] : Fin 2 → Nat) a ≤ (⟨2, ![n0, n1]⟩ : Shape).size a)
    (r : Fin m0) (l : Fin m1) (R : Fin n0) (L : Fin n1) (hR : R.val = o0 + r.val) (hL : L.val = o1 + l.val) :
    (Rect.unit (s := ⟨2, ![n0, n1]⟩) ![o0, o1] ![m0, m1] inb).emb (ix2 r l) = ix2 R L := by
  funext a
  apply Fin.ext
  match a with
  | ⟨0, _⟩ => show o0 + 1 * r.val = R.val; omega
  | ⟨1, _⟩ => show o1 + 1 * l.val = L.val; omega

/-- The same for the position a load through the rectangle reads, with the position written out. -/
theorem idx_unit_ix2 {n0 n1 m0 m1 : Nat} (o0 o1 : Nat)
    (inb : ∀ a, (![o0, o1] : Fin 2 → Nat) a + (![m0, m1] : Fin 2 → Nat) a ≤ (⟨2, ![n0, n1]⟩ : Shape).size a)
    (r : Fin m0) (l : Fin m1) :
    (Rect.unit (s := ⟨2, ![n0, n1]⟩) ![o0, o1] ![m0, m1] inb).toLoadRect.idx (ix2 r l)
      = ix2 ⟨o0 + r.val, by have h : o0 + m0 ≤ n0 := inb 0; have := r.isLt; omega⟩
            ⟨o1 + l.val, by have h : o1 + m1 ≤ n1 := inb 1; have := l.isLt; omega⟩ :=
  emb_unit_ix2 o0 o1 inb r l _ _ rfl rfl

/-- An index written with a zero offset is the index. -/
theorem fin_zero_add {n : Nat} (r : Fin n) (h : 0 + r.val < n) : (⟨0 + r.val, h⟩ : Fin n) = r := Fin.ext (Nat.zero_add _)

/-- Whether an entry lies in such a rectangle. -/
theorem mem_unit_ix2 {n0 n1 m0 m1 : Nat} (o0 o1 : Nat)
    (inb : ∀ a, (![o0, o1] : Fin 2 → Nat) a + (![m0, m1] : Fin 2 → Nat) a ≤ (⟨2, ![n0, n1]⟩ : Shape).size a)
    (R : Fin n0) (L : Fin n1) :
    ix2 R L ∈ (Rect.unit (s := ⟨2, ![n0, n1]⟩) ![o0, o1] ![m0, m1] inb).set
      ↔ (o0 ≤ R.val ∧ R.val < o0 + m0) ∧ (o1 ≤ L.val ∧ L.val < o1 + m1) := by
  rw [Rect.mem_set_unit]
  constructor
  · intro h; exact ⟨h 0, h 1⟩
  · intro h a
    match a with
    | ⟨0, _⟩ => exact h.1
    | ⟨1, _⟩ => exact h.2

end Cert.Mlp.Rects

end
-- ==== Proof.CaseValues.lean ====
/-
  What one run of the kernel body leaves behind, as functions of what it found.

  AT THE FIRST POINT OF A ROW BLOCK (case A) the body fills the carried buffer with the block's first hidden layer,
  four column blocks of 1024 hidden units at a time — read back, the four stores are ONE function of the buffer's
  index, `hidK` of the block of inputs —, starts the result block at x + b3, and then runs the step below on it.
  AT EVERY POINT (cases A and B) it adds one tile of 512 second-layer units, pushed through the matching rows of the
  third layer's weights, to the result block, the upper 512 rows and the lower 512 rows separately: `stepK` of the
  running result, the carried first hidden layer and the point's three blocks.
-/
import proofs.«162766_g14912126452479_cont_week2b_829_36_alg».proof.Proof.Gen.KernelIdeal.Frame
import proofs.«162766_g14912126452479_cont_week2b_829_36_alg».proof.Proof.Payloads
import proofs.«162766_g14912126452479_cont_week2b_829_36_alg».proof.Proof.Rects
import Idealize.ShloMosaic.Lib.Pipeline.Value
import Idealize.ShloMosaic.Lib.Tactic

set_option maxRecDepth 16384

noncomputable section

namespace Cert.KernelIdeal.Cases

open Cert.KernelIdeal Cert.KernelIdeal.Gen Cert.KernelIdeal.Pay Cert.Mlp Cert.Mlp.Rects
open Idealize.ShloMosaic Idealize.ShloMosaic.ValueIdx Idealize.ShloMosaic.TcCoe Idealize.SL.Sem

variable (c : Dev nD) (i : grid0.Coords) (arg2 : Memref sig .tc .vmem S1024x1024 .f32) (harg2 : arg2.IsWhole) (arg3 : Memref sig .tc .vmem S1024x4096 .bf16) (harg3 : arg3.IsWhole) (arg4 : Memref sig .tc .vmem S1x4096 .f32) (harg4 : arg4.IsWhole) (arg5 : Memref sig .tc .vmem S4096x512 .f32) (harg5 : arg5.IsWhole) (arg6 : Memref sig .tc .vmem S1x512 .f32) (harg6 : arg6.IsWhole) (arg7 : Memref sig .tc .vmem S512x1024 .bf16) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1024x4096 .bf16) (harg10 : arg10.IsWhole)
variable (x0 : Vec Ideal S1024x1024 .f32) (x1 : Vec Ideal S1024x4096 .bf16) (x2 : Vec Ideal S1x4096 .f32)
  (x3 : Vec Ideal S4096x512 .f32) (x4 : Vec Ideal S1x512 .f32) (x5 : Vec Ideal S512x1024 .bf16) (x6 : Vec Ideal S1x1024 .f32)

/-! ## Case A: the carried buffer -/

theorem scratch_canon (hc0 : cond0_0 i) (y : S1024x4096.Idx) :
    View.canon (kernelRun0_A (F := Ideal) c i arg2 harg2 arg3 harg3 arg4 harg4 arg5 harg5 arg6 harg6 arg7 harg7 arg8 harg8 arg9 harg9 arg10 harg10 hc0 x0 x1 x2 x3 x4 x5 x6).2.1 y = mat (hidK x0 x1 x2) y := by
  refine View.canon_apply_of_pieces (mat (hidK x0 x1 x2)) _ ?_ y (scover0_A_0 c i arg2 harg2 arg3 harg3 arg4 harg4 arg5 harg5 arg6 harg6 arg7 harg7 arg8 harg8 arg9 harg9 arg10 harg10 hc0 x0 x1 x2 x3 x4 x5 x6 y)
  unfold kernelRun0_A
  dsimp only
  sl_unfold_words
  intro p hp
  simp only [List.mem_cons, List.not_mem_nil, or_false] at hp
  rcases hp with rfl | rfl | rfl | rfl
  · intro x
    obtain ⟨r, l, rfl⟩ : ∃ (r : Fin 1024) (l : Fin 1024), x = ix2 r l := ⟨x 0, x 1, eq_ix2 x⟩
    dsimp only
    rw [emb_unit_ix2 0 3072 _ r l r ⟨3072 + l.val, by have := l.isLt; omega⟩ (by omega) rfl, mat_apply]
    refine (pay7_apply _ _ _ r l).trans ?_
    unfold hidK
    simp only [pay2_apply, View.readAt_eq_ld, harg2.read_unread, harg3.read_unread, harg4.read_unread, View.ld, idx_unit_ix2,
      fin_zero_add]
  · intro x
    obtain ⟨r, l, rfl⟩ : ∃ (r : Fin 1024) (l : Fin 1024), x = ix2 r l := ⟨x 0, x 1, eq_ix2 x⟩
    dsimp only
    rw [emb_unit_ix2 0 2048 _ r l r ⟨2048 + l.val, by have := l.isLt; omega⟩ (by omega) rfl, mat_apply]
    refine (pay6_apply _ _ r l).trans ?_
    unfold hidK
    simp only [pay5_apply, View.readAt_eq_ld, harg2.read_unread, harg3.read_unread, harg4.read_unread, View.ld, idx_unit_ix2,
      fin_zero_add]
  · intro x
    obtain ⟨r, l, rfl⟩ : ∃ (r : Fin 1024) (l : Fin 1024), x = ix2 r l := ⟨x 0, x 1, eq_ix2 x⟩
    dsimp only
    rw [emb_unit_ix2 0 1024 _ r l r ⟨1024 + l.val, by have := l.isLt; omega⟩ (by omega) rfl, mat_apply]
    refine (pay4_apply _ _ _ r l).trans ?_
    unfold hidK
    simp only [View.readAt_eq_ld, harg2.read_unread, harg3.read_unread, harg4.read_unread, View.ld, idx_unit_ix2,
      fin_zero_add]
  · intro x
    obtain ⟨r, l, rfl⟩ : ∃ (r : Fin 1024) (l : Fin 1024), x = ix2 r l := ⟨x 0, x 1, eq_ix2 x⟩
    dsimp only
    rw [emb_unit_ix2 0 0 _ r l r ⟨0 + l.val, by have := l.isLt; omega⟩ (by omega) rfl, mat_apply]
    refine (pay3_apply _ _ _ r l).trans ?_
    unfold hidK
    simp only [View.readAt_eq_ld, harg2.read_unread, harg3.read_unread, harg4.read_unread, View.ld, idx_unit_ix2,
      fin_zero_add]

/-- What case A leaves in the carried buffer: the first hidden layer of the block of inputs. -/
theorem scratch_A (hc0 : cond0_0 i) :
    sout0_A_0 (F := Ideal) c i arg2 harg2 arg3 harg3 arg4 harg4 arg5 harg5 arg6 harg6 arg7 harg7 arg8 harg8 arg9 harg9 arg10 harg10 hc0 x0 x1 x2 x3 x4 x5 x6 = mat (hidK x0 x1 x2) := by
  unfold sout0_A_0
  rw [View.read_writes_eq_canon _ _ _ (scover0_A_0 c i arg2 harg2 arg3 harg3 arg4 harg4 arg5 harg5 arg6 harg6 arg7 harg7 arg8 harg8 arg9 harg9 arg10 harg10 hc0 x0 x1 x2 x3 x4 x5 x6)]
  exact funext fun y => scratch_canon c i arg2 harg2 arg3 harg3 arg4 harg4 arg5 harg5 arg6 harg6 arg7 harg7 arg8 harg8 arg9 harg9 arg10 harg10 x0 x1 x2 x3 x4 x5 x6 hc0 y

/-! ## Case B: one tile added to the running result -/

/-- Rows 0 … 511 of the result block after a point of case B. -/
theorem out_B_lo (hc0 : ¬cond0_0 i) (xo7 : Vec Ideal S1024x1024 .f32) (xs0 : Vec Ideal S1024x4096 .bf16) (p : Fin 512) (cc : Fin 1024) :
    out0_B_7 (F := Ideal) c i arg2 harg2 arg3 harg3 arg4 harg4 arg5 harg5 arg6 harg6 arg7 harg7 arg8 harg8 arg9 harg9 arg10 harg10 hc0 x0 x1 x2 x3 x4 x5 x6 xo7 xs0 (ix2 ⟨p.val, by have := p.isLt; omega⟩ cc)
      = stepK xo7 xs0 x3 x4 x5 ⟨p.val, by have := p.isLt; omega⟩ cc := by
  unfold out0_B_7
  rw [View.read_writes_eq_canon _ _ _ (cover0_B_7 c i arg2 harg2 arg3 harg3 arg4 harg4 arg5 harg5 arg6 harg6 arg7 harg7 arg8 harg8 arg9 harg9 arg10 harg10 hc0 x0 x1 x2 x3 x4 x5 x6 xo7 xs0)]
  unfold kernelRun0_B
  dsimp only
  sl_unfold_words
  refine (View.canon_cons_of_not_mem _ _ ?_).trans ?_
  · intro hmem
    have h := (mem_unit_ix2 512 0 inb_S1024x1024_S512x1024_512_0 _ _).mp hmem
    have := p.isLt
    dsimp only at h
    omega
  rw [← emb_unit_ix2 0 0 inb_S1024x1024_S512x1024_0_0 p cc ⟨p.val, by have := p.isLt; omega⟩ cc (by simp) (by simp),
    View.canon_cons_emb]
  refine (pay10_apply _ _ _ _ _ p cc).trans ?_
  unfold stepK
  simp only [View.readAt_eq_ld, harg5.read_unread, harg6.read_unread, harg7.read_unread, harg9.read_unread,
    harg10.read_unread, View.ld, idx_unit_ix2, Nat.zero_add, Fin.eta]

/-- Rows 512 … 1023 of the result block after a point of case B. -/
theorem out_B_hi (hc0 : ¬cond0_0 i) (xo7 : Vec Ideal S1024x1024 .f32) (xs0 : Vec Ideal S1024x4096 .bf16) (p : Fin 512) (cc : Fin 1024) :
    out0_B_7 (F := Ideal) c i arg2 harg2 arg3 harg3 arg4 harg4 arg5 harg5 arg6 harg6 arg7 harg7 arg8 harg8 arg9 harg9 arg10 harg10 hc0 x0 x1 x2 x3 x4 x5 x6 xo7 xs0 (ix2 ⟨512 + p.val, by have := p.isLt; omega⟩ cc)
      = stepK xo7 xs0 x3 x4 x5 ⟨512 + p.val, by have := p.isLt; omega⟩ cc := by
  unfold out0_B_7
  rw [View.read_writes_eq_canon _ _ _ (cover0_B_7 c i arg2 harg2 arg3 harg3 arg4 harg4 arg5 harg5 arg6 harg6 arg7 harg7 arg8 harg8 arg9 harg9 arg10 harg10 hc0 x0 x1 x2 x3 x4 x5 x6 xo7 xs0)]
  unfold kernelRun0_B
  dsimp only
  sl_unfold_words
  rw [← emb_unit_ix2 512 0 inb_S1024x1024_S512x1024_512_0 p cc ⟨512 + p.val, by have := p.isLt; omega⟩ cc rfl (by simp),
    View.canon_cons_emb]
  refine (pay1_pay11_apply _ _ _ _ _ p cc).trans ?_
  unfold stepK
  simp only [View.readAt_eq_ld, harg5.read_unread, harg6.read_unread, harg7.read_unread, harg9.read_unread,
    harg10.read_unread, View.ld, idx_unit_ix2, Nat.zero_add, Fin.eta]

/-- What case B leaves in the result block: the running result plus this point's tile. -/
theorem out_B (hc0 : ¬cond0_0 i) (xo7 : Vec Ideal S1024x1024 .f32) (xs0 : Vec Ideal S1024x4096 .bf16) :
    out0_B_7 (F := Ideal) c i arg2 harg2 arg3 harg3 arg4 harg4 arg5 harg5 arg6 harg6 arg7 harg7 arg8 harg8 arg9 harg9 arg10 harg10 hc0 x0 x1 x2 x3 x4 x5 x6 xo7 xs0 = mat (stepK xo7 xs0 x3 x4 x5) := by
  funext y
  obtain ⟨R, cc, rfl⟩ : ∃ (R : Fin 1024) (cc : Fin 1024), y = ix2 R cc := ⟨y 0, y 1, eq_ix2 y⟩
  rw [mat_apply]
  rcases Nat.lt_or_ge R.val 512 with hR | hR
  · exact out_B_lo c i arg2 harg2 arg3 harg3 arg4 harg4 arg5 harg5 arg6 harg6 arg7 harg7 arg8 harg8 arg9 harg9 arg10 harg10 x0 x1 x2 x3 x4 x5 x6 hc0 xo7 xs0 ⟨R.val, hR⟩ cc
  · have e : R = ⟨512 + (R.val - 512), by have := R.isLt; omega⟩ := Fin.ext (by simp only; omega)
    rw [e]
    exact out_B_hi c i arg2 harg2 arg3 harg3 arg4 harg4 arg5 harg5 arg6 harg6 arg7 harg7 arg8 harg8 arg9 harg9 arg10 harg10 x0 x1 x2 x3 x4 x5 x6 hc0 xo7 xs0 ⟨R.val - 512, by have := R.isLt; omega⟩ cc

end Cert.KernelIdeal.Cases

end
-- ==== Proof.CaseStart.lean ====
/-
  The first point of a row block (case A), the result block: the body stores x + b3 over the whole block, reads
  each half back, and adds the point's tile to it — with the first hidden layer read back from the buffer it has
  just filled.  So the block ends at `stepK` of x + b3, the block's first hidden layer and the point's three blocks.
-/
import proofs.«162766_g14912126452479_cont_week2b_829_36_alg».proof.Proof.CaseValues

set_option maxRecDepth 16384

noncomputable section

namespace Cert.KernelIdeal.Cases

open Cert.KernelIdeal Cert.KernelIdeal.Gen Cert.KernelIdeal.Pay Cert.Mlp Cert.Mlp.Rects
open Idealize.ShloMosaic Idealize.ShloMosaic.ValueIdx Idealize.ShloMosaic.TcCoe Idealize.SL.Sem

/-- Two steps agree at an entry when their five operands agree at the entries the step reads. -/
theorem stepK_congr {A A' : Nat} (acc : Mat A 1024) (h : Mat A 4096) (w2 : Mat 4096 512) (b2 : Mat 1 512) (w3 : Mat 512 1024)
    (acc' : Mat A' 1024) (h' : Mat A' 4096) (w2' : Mat 4096 512) (b2' : Mat 1 512) (w3' : Mat 512 1024)
    (p : Fin A) (R : Fin A') (cc : Fin 1024)
    (hacc : acc (ix2 p cc) = acc' (ix2 R cc)) (hh : ∀ l, h (ix2 p l) = h' (ix2 R l))
    (hw2 : ∀ l k, w2 (ix2 l k) = w2' (ix2 l k)) (hb2 : ∀ k, b2 (ix2 0 k) = b2' (ix2 0 k))
    (hw3 : ∀ k, w3 (ix2 k cc) = w3' (ix2 k cc)) :
    stepK acc h w2 b2 w3 p cc = stepK acc' h' w2' b2' w3' R cc := by
  unfold stepK
  simp only [hacc, hh, hw2, hb2, hw3]

/-- The residual start of a block: the inputs plus the last bias. -/
def startK {A : Nat} (x : Mat A 1024) (b3 : Mat 1 1024) (r : Fin A) (c : Fin 1024) : EReal := x (ix2 r c) + b3 (ix2 0 c)

theorem hz2 : (![0, 0] : Fin 2 → Nat) = fun _ => 0 := funext fun a => by fin_cases a <;> rfl

variable (c : Dev nD) (i : grid0.Coords) (arg2 : Memref sig .tc .vmem S1024x1024 .f32) (harg2 : arg2.IsWhole) (arg3 : Memref sig .tc .vmem S1024x4096 .bf16) (harg3 : arg3.IsWhole) (arg4 : Memref sig .tc .vmem S1x4096 .f32) (harg4 : arg4.IsWhole) (arg5 : Memref sig .tc .vmem S4096x512 .f32) (harg5 : arg5.IsWhole) (arg6 : Memref sig .tc .vmem S1x512 .f32) (harg6 : arg6.IsWhole) (arg7 : Memref sig .tc .vmem S512x1024 .bf16) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1024x4096 .bf16) (harg10 : arg10.IsWhole)
variable (x0 : Vec Ideal S1024x1024 .f32) (x1 : Vec Ideal S1024x4096 .bf16) (x2 : Vec Ideal S1x4096 .f32)
  (x3 : Vec Ideal S4096x512 .f32) (x4 : Vec Ideal S1x512 .f32) (x5 : Vec Ideal S512x1024 .bf16) (x6 : Vec Ideal S1x1024 .f32)

/-- Rows 0 … 511 of the result block after a point of case A. -/
theorem out_A_lo (hc0 : cond0_0 i) (p : Fin 512) (cc : Fin 1024) :
    out0_A_7 (F := Ideal) c i arg2 harg2 arg3 harg3 arg4 harg4 arg5 harg5 arg6 harg6 arg7 harg7 arg8 harg8 arg9 harg9 arg10 harg10 hc0 x0 x1 x2 x3 x4 x5 x6 (ix2 ⟨p.val, by have := p.isLt; omega⟩ cc)
      = stepK (mat (startK x0 x6)) (mat (hidK x0 x1 x2)) x3 x4 x5 ⟨p.val, by have := p.isLt; omega⟩ cc := by
  unfold out0_A_7
  rw [View.read_writes_eq_canon _ _ _ (cover0_A_7 c i arg2 harg2 arg3 harg3 arg4 harg4 arg5 harg5 arg6 harg6 arg7 harg7 arg8 harg8 arg9 harg9 arg10 harg10 hc0 x0 x1 x2 x3 x4 x5 x6)]
  unfold kernelRun0_A
  dsimp only
  sl_unfold_words
  refine (View.canon_cons_of_not_mem _ _ ?_).trans ?_
  · intro hmem
    have h := (mem_unit_ix2 512 0 inb_S1024x1024_S512x1024_512_0 _ _).mp hmem
    have := p.isLt
    dsimp only at h
    omega
  rw [← emb_unit_ix2 0 0 inb_S1024x1024_S512x1024_0_0 p cc ⟨p.val, by have := p.isLt; omega⟩ cc (by simp) (by simp),
    View.canon_cons_emb]
  refine (pay10_apply _ _ _ _ _ p cc).trans ?_
  refine stepK_congr _ _ _ _ _ _ _ _ _ _ p _ cc ?_ ?_ ?_ ?_ ?_
  · rw [View.readCov_eq_canon']
    beta_reduce
    rw [View.canon_unit_zero (S := S1024x1024) hz2, idx_unit_ix2, pay8_apply, mat_apply]
    unfold startK
    simp only [View.readAt_eq_ld, harg2.read_unread, harg8.read_unread, View.ld, idx_unit_ix2, Nat.zero_add, Fin.eta]
  · intro l
    rw [View.readCov_eq_canon']
    beta_reduce
    refine (scratch_canon c i arg2 harg2 arg3 harg3 arg4 harg4 arg5 harg5 arg6 harg6 arg7 harg7 arg8 harg8 arg9 harg9 arg10 harg10 x0 x1 x2 x3 x4 x5 x6 hc0 _).trans ?_
    rw [idx_unit_ix2]
    simp only [Nat.zero_add, Fin.eta]
  · intro l k
    simp only [View.readAt_eq_ld, harg5.read_unread, View.ld, idx_unit_ix2, Nat.zero_add, Fin.eta]
  · intro k
    simp only [View.readAt_eq_ld, harg6.read_unread, View.ld, idx_unit_ix2, Nat.zero_add, Fin.eta]
  · intro k
    simp only [View.readAt_eq_ld, harg7.read_unread, View.ld, idx_unit_ix2, Nat.zero_add, Fin.eta]

/-- Rows 512 … 1023 of the result block after a point of case A. -/
theorem out_A_hi (hc0 : cond0_0 i) (p : Fin 512) (cc : Fin 1024) :
    out0_A_7 (F := Ideal) c i arg2 harg2 arg3 harg3 arg4 harg4 arg5 harg5 arg6 harg6 arg7 harg7 arg8 harg8 arg9 harg9 arg10 harg10 hc0 x0 x1 x2 x3 x4 x5 x6 (ix2 ⟨512 + p.val, by have := p.isLt; omega⟩ cc)
      = stepK (mat (startK x0 x6)) (mat (hidK x0 x1 x2)) x3 x4 x5 ⟨512 + p.val, by have := p.isLt; omega⟩ cc := by
  unfold out0_A_7
  rw [View.read_writes_eq_canon _ _ _ (cover0_A_7 c i arg2 harg2 arg3 harg3 arg4 harg4 arg5 harg5 arg6 harg6 arg7 harg7 arg8 harg8 arg9 harg9 arg10 harg10 hc0 x0 x1 x2 x3 x4 x5 x6)]
  unfold kernelRun0_A
  dsimp only
  sl_unfold_words
  rw [← emb_unit_ix2 512 0 inb_S1024x1024_S512x1024_512_0 p cc ⟨512 + p.val, by have := p.isLt; omega⟩ cc rfl (by simp),
    View.canon_cons_emb]
  refine (pay1_pay11_apply _ _ _ _ _ p cc).trans ?_
  refine stepK_congr _ _ _ _ _ _ _ _ _ _ p _ cc ?_ ?_ ?_ ?_ ?_
  · rw [View.readCov_eq_canon']
    beta_reduce
    rw [idx_unit_ix2]
    refine (View.canon_cons_of_not_mem _ _ ?_).trans ?_
    · intro hmem
      have h := (mem_unit_ix2 0 0 inb_S1024x1024_S512x1024_0_0 _ _).mp hmem
      dsimp only at h
      omega
    rw [View.canon_unit_zero (S := S1024x1024) hz2, pay8_apply, mat_apply]
    unfold startK
    simp only [View.readAt_eq_ld, harg2.read_unread, harg8.read_unread, View.ld, idx_unit_ix2, Nat.zero_add, Fin.eta]
  · intro l
    rw [View.readCov_eq_canon']
    beta_reduce
    refine (scratch_canon c i arg2 harg2 arg3 harg3 arg4 harg4 arg5 harg5 arg6 harg6 arg7 harg7 arg8 harg8 arg9 harg9 arg10 harg10 x0 x1 x2 x3 x4 x5 x6 hc0 _).trans ?_
    rw [idx_unit_ix2]
    simp only [Nat.zero_add, Fin.eta]
  · intro l k
    simp only [View.readAt_eq_ld, harg5.read_unread, View.ld, idx_unit_ix2, Nat.zero_add, Fin.eta]
  · intro k
    simp only [View.readAt_eq_ld, harg6.read_unread, View.ld, idx_unit_ix2, Nat.zero_add, Fin.eta]
  · intro k
    simp only [View.readAt_eq_ld, harg7.read_unread, View.ld, idx_unit_ix2, Nat.zero_add, Fin.eta]

/-- What case A leaves in the result block: x + b3 plus this point's tile, over the block's first hidden layer. -/
theorem out_A (hc0 : cond0_0 i) :
    out0_A_7 (F := Ideal) c i arg2 harg2 arg3 harg3 arg4 harg4 arg5 harg5 arg6 harg6 arg7 harg7 arg8 harg8 arg9 harg9 arg10 harg10 hc0 x0 x1 x2 x3 x4 x5 x6
      = mat (stepK (mat (startK x0 x6)) (mat (hidK x0 x1 x2)) x3 x4 x5) := by
  funext y
  obtain ⟨R, cc, rfl⟩ : ∃ (R : Fin 1024) (cc : Fin 1024), y = ix2 R cc := ⟨y 0, y 1, eq_ix2 y⟩
  rw [mat_apply]
  rcases Nat.lt_or_ge R.val 512 with hR | hR
  · exact out_A_lo c i arg2 harg2 arg3 harg3 arg4 harg4 arg5 harg5 arg6 harg6 arg7 harg7 arg8 harg8 arg9 harg9 arg10 harg10 x0 x1 x2 x3 x4 x5 x6 hc0 ⟨R.val, hR⟩ cc
  · have e : R = ⟨512 + (R.val - 512), by have := R.isLt; omega⟩ := Fin.ext (by simp only; omega)
    rw [e]
    exact out_A_hi c i arg2 harg2 arg3 harg3 arg4 harg4 arg5 harg5 arg6 harg6 arg7 harg7 arg8 harg8 arg9 harg9 arg10 harg10 x0 x1 x2 x3 x4 x5 x6 hc0 ⟨R.val - 512, by have := R.isLt; omega⟩ cc

end Cert.KernelIdeal.Cases

end
-- ==== Proof.Blocks.lean ====
/-
  What each of the kernel's seven input windows holds at a grid point, entry by entry, in terms of the seven
  argument arrays.

  The grid has 16 × 8 points; point t has the row-block coordinate t / 8 and the hidden-tile coordinate t % 8.
  A block's entry at (a, b) is the array's entry at (index₀ · size₀ + a, index₁ · size₁ + b), the block index
  being the window's index map at the point.  The index maps are decided once over the 128 points (`idx0` …
  `idx7`); the rest is arithmetic on coordinates.

    window 0   the input x, rows 1024·(t/8) … 1024·(t/8)+1023, all 1024 columns           (`blk0`)
    window 1   the first layer's weights, whole                                            (`blk1`)
    window 2   the first layer's bias, whole, as a one-row matrix                          (`blk2`)
    window 3   the second layer's weights, all rows, columns 512·(t%8) … 512·(t%8)+511     (`blk3`)
    window 4   the second layer's bias, entries 512·(t%8) …, as a one-row matrix           (`blk4`)
    window 5   the third layer's weights, rows 512·(t%8) …, all 1024 columns               (`blk5`)
    window 6   the third layer's bias, whole, as a one-row matrix                          (`blk6`)

  Windows 1 and 5 stage arrays the program narrowed to the 16-bit format before the region, and windows 2, 4, 6
  arrays it reshaped from a vector to a one-row matrix (`V_w1` … `V_w6`).  Over the extended reals the narrowing
  is the identity, and the reshape reads entry (0, i) at i.
-/
import proofs.«162766_g14912126452479_cont_week2b_829_36_alg».proof.Proof.Gen.KernelIdeal.Frame
import proofs.«162766_g14912126452479_cont_week2b_829_36_alg».proof.Proof.Spec
import Idealize.ShloMosaic.Lib.Pipeline.Value
import Idealize.ShloMosaic.Lib.ValueLayout
import Idealize.ShloMosaic.Lib.ValueIdx
import Idealize.ShloMosaic.Lib.StableHlo.Run

noncomputable section

namespace Cert.KernelIdeal.Blocks

open Cert.KernelIdeal Cert.KernelIdeal.Gen Cert.Mlp Idealize.ShloMosaic Idealize.ShloMosaic.ValueIdx Idealize.ShloMosaic.TcCoe Idealize.SL.Sem

variable (m : (ℓ : Loc nD τ sig) → Buf (Elt Ideal) ℓ) (c : Dev nD) (t : Fin cfg0.N)

/-! ## The grid point's two coordinates -/

/-- The row-block coordinate of a grid point is below 16. -/
theorem hi : t.val / 8 < 16 := by have := t.isLt; have h : cfg0.N = 128 := N_0; omega

/-- The hidden-tile coordinate of a grid point is below 8. -/
theorem hj : t.val % 8 < 8 := by omega

/-! ## The index maps, decided once over the grid -/

/-- Window 0 (the input rows): block (t / 8, 0). -/
theorem idx0 : ∀ t : Fin cfg0.N, win0_0.index t 0 = t.val / 8 ∧ win0_0.index t 1 = 0 :=
  (by decide +kernel : ∀ t : Fin grid0.N, win0_0.index t 0 = t.val / 8 ∧ win0_0.index t 1 = 0)

/-- Window 1 (the first layer's weights, whole): block (0, 0). -/
theorem idx1 : ∀ t : Fin cfg0.N, win0_1.index t 0 = 0 ∧ win0_1.index t 1 = 0 :=
  (by decide +kernel : ∀ t : Fin grid0.N, win0_1.index t 0 = 0 ∧ win0_1.index t 1 = 0)

/-- Window 2 (the first layer's bias, whole): block (0, 0). -/
theorem idx2 : ∀ t : Fin cfg0.N, win0_2.index t 0 = 0 ∧ win0_2.index t 1 = 0 :=
  (by decide +kernel : ∀ t : Fin grid0.N, win0_2.index t 0 = 0 ∧ win0_2.index t 1 = 0)

/-- Window 3 (the second layer's weights): block (0, t % 8). -/
theorem idx3 : ∀ t : Fin cfg0.N, win0_3.index t 0 = 0 ∧ win0_3.index t 1 = t.val % 8 :=
  (by decide +kernel : ∀ t : Fin grid0.N, win0_3.index t 0 = 0 ∧ win0_3.index t 1 = t.val % 8)

/-- Window 4 (the second layer's bias): block (0, t % 8). -/
theorem idx4 : ∀ t : Fin cfg0.N, win0_4.index t 0 = 0 ∧ win0_4.index t 1 = t.val % 8 :=
  (by decide +kernel : ∀ t : Fin grid0.N, win0_4.index t 0 = 0 ∧ win0_4.index t 1 = t.val % 8)

/-- Window 5 (the third layer's weights): block (t % 8, 0). -/
theorem idx5 : ∀ t : Fin cfg0.N, win0_5.index t 0 = t.val % 8 ∧ win0_5.index t 1 = 0 :=
  (by decide +kernel : ∀ t : Fin grid0.N, win0_5.index t 0 = t.val % 8 ∧ win0_5.index t 1 = 0)

/-- Window 6 (the third layer's bias, whole): block (0, 0). -/
theorem idx6 : ∀ t : Fin cfg0.N, win0_6.index t 0 = 0 ∧ win0_6.index t 1 = 0 :=
  (by decide +kernel : ∀ t : Fin grid0.N, win0_6.index t 0 = 0 ∧ win0_6.index t 1 = 0)

/-- Window 7 (the result rows): block (t / 8, 0). -/
theorem idx7 : ∀ t : Fin cfg0.N, win0_7.index t 0 = t.val / 8 ∧ win0_7.index t 1 = 0 :=
  (by decide +kernel : ∀ t : Fin grid0.N, win0_7.index t 0 = t.val / 8 ∧ win0_7.index t 1 = 0)

/-! ## The arrays the host operations wrote before the region -/

/-- The first layer's weights as the region finds them: the argument narrowed, which over the extended reals
    changes nothing. -/
theorem V_w1 : @Eq (S1024x4096.Idx → EReal) (V m c main_call0_v0)
    (truncf (F := Ideal) (s := S1024x4096) .bf16 (m ((c : Thread nD τ).loc main_arg1)) bitsLt_bf16_f32) := by
  dsimp only [Gen.V, Gen.hostOps0]; after_results; rfl

/-- The third layer's weights as the region finds them: the argument narrowed. -/
theorem V_w5 : @Eq (S4096x1024.Idx → EReal) (V m c main_call0_v1)
    (truncf (F := Ideal) (s := S4096x1024) .bf16 (m ((c : Thread nD τ).loc main_arg5)) bitsLt_bf16_f32) := by
  dsimp only [Gen.V, Gen.hostOps0]; after_results; rfl

/-- The first layer's bias as the region finds it: the argument vector as a one-row matrix. -/
theorem V_w2 : @Eq (S1x4096.Idx → EReal) (V m c main_call0_v2)
    (shapeCast S1x4096 (m ((c : Thread nD τ).loc main_arg2)) shapeCasts_S4096_S1x4096) := by
  dsimp only [Gen.V, Gen.hostOps0]; after_results; rfl

/-- The second layer's bias as the region finds it: the argument vector as a one-row matrix. -/
theorem V_w4 : @Eq (S1x4096.Idx → EReal) (V m c main_call0_v3)
    (shapeCast S1x4096 (m ((c : Thread nD τ).loc main_arg4)) shapeCasts_S4096_S1x4096) := by
  dsimp only [Gen.V, Gen.hostOps0]; after_results; rfl

/-- The third layer's bias as the region finds it: the argument vector as a one-row matrix. -/
theorem V_w6 : @Eq (S1x1024.Idx → EReal) (V m c main_call0_v4)
    (shapeCast S1x1024 (m ((c : Thread nD τ).loc main_arg6)) shapeCasts_S1024_S1x1024) := by
  dsimp only [Gen.V, Gen.hostOps0]; after_results; rfl

/-! ## The blocks, entry by entry -/

/-- Window 0 at point t: rows 1024·(t/8) … of the input. -/
theorem blk0 (r : Fin 1024) (p : Fin 1024) :
    (iblk m c 0 t : Vec Ideal S1024x1024 .f32) (ix2 r p)
      = m ((c : Thread nD τ).loc main_arg0) (ix2 (rowAt (t.val / 8) (hi t) r) p) := by
  unfold iblk
  rw [View.read_apply]
  show V m c main_arg0 (((cfg0.win 0).blk t).view.emb (ix2 r p)) = _
  rw [V_main_arg0 m c]
  congr 1
  funext a
  apply Fin.ext
  match a with
  | ⟨0, _⟩ => show win0_0.index t 0 * 1024 + 1 * r.val = 1024 * (t.val / 8) + r.val; rw [(idx0 t).1]; omega
  | ⟨1, _⟩ => show win0_0.index t 1 * 1024 + 1 * p.val = p.val; rw [(idx0 t).2]; omega

/-- Window 1 at every point: the whole first-layer weight matrix. -/
theorem blk1 (p : Fin 1024) (l : Fin 4096) :
    (iblk m c 1 t : Vec Ideal S1024x4096 .bf16) (ix2 p l) = m ((c : Thread nD τ).loc main_arg1) (ix2 p l) := by
  unfold iblk
  rw [View.read_apply]
  show V m c main_call0_v0 (((cfg0.win 1).blk t).view.emb (ix2 p l)) = _
  rw [V_w1 m c, truncf_apply]
  congr 1
  funext a
  apply Fin.ext
  match a with
  | ⟨0, _⟩ => show win0_1.index t 0 * 1024 + 1 * p.val = p.val; rw [(idx1 t).1]; omega
  | ⟨1, _⟩ => show win0_1.index t 1 * 4096 + 1 * l.val = l.val; rw [(idx1 t).2]; omega

/-- Window 2 at every point: the whole first-layer bias. -/
theorem blk2 (l : Fin 4096) :
    (iblk m c 2 t : Vec Ideal S1x4096 .f32) (ix2 0 l) = m ((c : Thread nD τ).loc main_arg2) (ix1 l) := by
  unfold iblk
  rw [View.read_apply]
  show V m c main_call0_v2 (((cfg0.win 2).blk t).view.emb (ix2 0 l)) = _
  rw [V_w2 m c]
  refine Eq.trans ?_ (shapeCast_a_1a_apply (m ((c : Thread nD τ).loc main_arg2)) shapeCasts_S4096_S1x4096 0 l)
  congr 1
  funext a
  apply Fin.ext
  match a with
  | ⟨0, _⟩ => show win0_2.index t 0 * 1 + 1 * 0 = 0; rw [(idx2 t).1]
  | ⟨1, _⟩ => show win0_2.index t 1 * 4096 + 1 * l.val = l.val; rw [(idx2 t).2]; omega

/-- Window 3 at point t: columns 512·(t%8) … of the second layer's weights. -/
theorem blk3 (l : Fin 4096) (k : Fin 512) :
    (iblk m c 3 t : Vec Ideal S4096x512 .f32) (ix2 l k)
      = m ((c : Thread nD τ).loc main_arg3) (ix2 l (colAt (t.val % 8) (hj t) k)) := by
  unfold iblk
  rw [View.read_apply]
  show V m c main_arg3 (((cfg0.win 3).blk t).view.emb (ix2 l k)) = _
  rw [V_main_arg3 m c]
  congr 1
  funext a
  apply Fin.ext
  match a with
  | ⟨0, _⟩ => show win0_3.index t 0 * 4096 + 1 * l.val = l.val; rw [(idx3 t).1]; omega
  | ⟨1, _⟩ => show win0_3.index t 1 * 512 + 1 * k.val = t.val % 8 * 512 + k.val; rw [(idx3 t).2]; omega

/-- Window 4 at point t: entries 512·(t%8) … of the second layer's bias. -/
theorem blk4 (k : Fin 512) :
    (iblk m c 4 t : Vec Ideal S1x512 .f32) (ix2 0 k)
      = m ((c : Thread nD τ).loc main_arg4) (ix1 (colAt (t.val % 8) (hj t) k)) := by
  unfold iblk
  rw [View.read_apply]
  show V m c main_call0_v3 (((cfg0.win 4).blk t).view.emb (ix2 0 k)) = _
  rw [V_w4 m c]
  refine Eq.trans ?_ (shapeCast_a_1a_apply (m ((c : Thread nD τ).loc main_arg4)) shapeCasts_S4096_S1x4096 0
    (colAt (t.val % 8) (hj t) k))
  congr 1
  funext a
  apply Fin.ext
  match a with
  | ⟨0, _⟩ => show win0_4.index t 0 * 1 + 1 * 0 = 0; rw [(idx4 t).1]
  | ⟨1, _⟩ => show win0_4.index t 1 * 512 + 1 * k.val = t.val % 8 * 512 + k.val; rw [(idx4 t).2]; omega

/-- Window 5 at point t: rows 512·(t%8) … of the third layer's weights. -/
theorem blk5 (k : Fin 512) (q : Fin 1024) :
    (iblk m c 5 t : Vec Ideal S512x1024 .bf16) (ix2 k q)
      = m ((c : Thread nD τ).loc main_arg5) (ix2 (colAt (t.val % 8) (hj t) k) q) := by
  unfold iblk
  rw [View.read_apply]
  show V m c main_call0_v1 (((cfg0.win 5).blk t).view.emb (ix2 k q)) = _
  rw [V_w5 m c, truncf_apply]
  congr 1
  funext a
  apply Fin.ext
  match a with
  | ⟨0, _⟩ => show win0_5.index t 0 * 512 + 1 * k.val = t.val % 8 * 512 + k.val; rw [(idx5 t).1]; omega
  | ⟨1, _⟩ => show win0_5.index t 1 * 1024 + 1 * q.val = q.val; rw [(idx5 t).2]; omega

/-- Window 6 at every point: the whole third-layer bias. -/
theorem blk6 (q : Fin 1024) :
    (iblk m c 6 t : Vec Ideal S1x1024 .f32) (ix2 0 q) = m ((c : Thread nD τ).loc main_arg6) (ix1 q) := by
  unfold iblk
  rw [View.read_apply]
  show V m c main_call0_v4 (((cfg0.win 6).blk t).view.emb (ix2 0 q)) = _
  rw [V_w6 m c]
  refine Eq.trans ?_ (shapeCast_a_1a_apply (m ((c : Thread nD τ).loc main_arg6)) shapeCasts_S1024_S1x1024 0 q)
  congr 1
  funext a
  apply Fin.ext
  match a with
  | ⟨0, _⟩ => show win0_6.index t 0 * 1 + 1 * 0 = 0; rw [(idx6 t).1]
  | ⟨1, _⟩ => show win0_6.index t 1 * 1024 + 1 * q.val = q.val; rw [(idx6 t).2]; omega

end Cert.KernelIdeal.Blocks

end
-- ==== Proof.Fold.lean ====
/-
  What the result block and the carried buffer hold after every grid point, as functions of the seven argument
  arrays.  Point t works on row block t / 8 and on tile t % 8 of the hidden units.  By induction along the points:
  the carried buffer holds the row block's first hidden layer (filled at the block's first point, kept afterwards),
  and the result block holds x + b3 plus the tiles 0 … t % 8 (started at the block's first point, one tile added
  at each later one).
-/
import proofs.«162766_g14912126452479_cont_week2b_829_36_alg».proof.Proof.CaseStart
import proofs.«162766_g14912126452479_cont_week2b_829_36_alg».proof.Proof.Blocks

set_option maxRecDepth 16384

noncomputable section

namespace Cert.KernelIdeal.Fold

open Cert.KernelIdeal Cert.KernelIdeal.Gen Cert.KernelIdeal.Cases Cert.KernelIdeal.Blocks Cert.Mlp
open Idealize.ShloMosaic Idealize.ShloMosaic.ValueIdx Idealize.ShloMosaic.TcCoe Idealize.SL.Sem

variable (m : (ℓ : Loc nD τ sig) → Buf (Elt Ideal) ℓ) (c : Dev nD)

/-- The seven argument arrays on core `c`. -/
abbrev gX : Mat 16384 1024 := m ((c : Thread nD τ).loc main_arg0)
abbrev gW1 : Mat 1024 4096 := m ((c : Thread nD τ).loc main_arg1)
abbrev gB1 : Row 4096 := m ((c : Thread nD τ).loc main_arg2)
abbrev gW2 : Mat 4096 4096 := m ((c : Thread nD τ).loc main_arg3)
abbrev gB2 : Row 4096 := m ((c : Thread nD τ).loc main_arg4)
abbrev gW3 : Mat 4096 1024 := m ((c : Thread nD τ).loc main_arg5)
abbrev gB3 : Row 1024 := m ((c : Thread nD τ).loc main_arg6)

theorem hdiv (n : ℕ) (h : n < cfg0.N) : n / 8 < 16 := by have hN : cfg0.N = 128 := N_0; omega

theorem rowAt_congr {a b : ℕ} (e : a = b) (ha : a < 16) (hb : b < 16) (r : Fin 1024) : rowAt a ha r = rowAt b hb r := by
  subst e; rfl

/-- The first hidden layer of the row block a point works on, from the point's blocks. -/
theorem hid_point (t : Fin cfg0.N) (r : Fin 1024) (l : Fin 4096) :
    hidK (iblk m c 0 t) (iblk m c 1 t) (iblk m c 2 t) r l = kerH1 (gX m c) (gW1 m c) (gB1 m c) (rowAt (t.val / 8) (hi t) r) l := by
  unfold hidK kerH1
  simp only [blk0 m c t, blk1 m c t, blk2 m c t]

/-- The tile a point adds, from the point's blocks, over a first hidden layer `H` that is the row's. -/
theorem tile_point (t : Fin cfg0.N) (H : Mat 1024 4096) (R : Fin 16384) (r : Fin 1024)
    (hH : ∀ l, H (ix2 r l) = kerH1 (gX m c) (gW1 m c) (gB1 m c) R l) (cc : Fin 1024) :
    ∑ k : Fin 512, max ((∑ l : Fin 4096, H (ix2 r l) * iblk m c 3 t (ix2 l k)) + iblk m c 4 t (ix2 0 k)) zeroW
        * iblk m c 5 t (ix2 k cc)
      = ∑ k : Fin 512, kerTerm (gX m c) (gW1 m c) (gB1 m c) (gW2 m c) (gB2 m c) (gW3 m c) R cc ((t.val % 8) * 512 + k.val) := by
  refine Finset.sum_congr rfl fun k _ => ?_
  have hk : (t.val % 8) * 512 + k.val < 4096 := by have := k.isLt; have := hj t; omega
  unfold kerTerm
  rw [dif_pos hk]
  simp only [blk3 m c t, blk4 m c t, blk5 m c t, hH]
  rfl

theorem pred_lt (t : Fin cfg0.N) : t.val - 1 < cfg0.N := Nat.lt_of_le_of_lt (Nat.sub_le _ _) t.isLt

/-- At the first point of a row block: the carried buffer is filled with the block's first hidden layer, and the
    result block is x + b3 plus tile 0. -/
theorem point_A (t : Fin cfg0.N) (h0 : t.val % 8 = 0) :
    (∀ (r : Fin 1024) (l : Fin 4096),
        (outsAt0 m c t.val t.isLt).2 (ix2 r l) = kerH1 (gX m c) (gW1 m c) (gB1 m c) (rowAt (t.val / 8) (hi t) r) l)
    ∧ (∀ (r : Fin 1024) (cc : Fin 1024),
        (outsAt0 m c t.val t.isLt).1 (ix2 r cc) = kerPartial (gX m c) (gW1 m c) (gB1 m c) (gW2 m c) (gB2 m c) (gW3 m c) (gB3 m c) (t.val % 8) (rowAt (t.val / 8) (hi t) r) cc) := by
  obtain ⟨e1, e2⟩ := Prod.ext_iff.mp (outsAt0_A m c t h0)
  dsimp only at e1 e2
  constructor
  · intro r l
    rw [e2, scratch_A, mat_apply, hid_point]
  · intro r cc
    rw [e1, out_A, mat_apply]
    unfold stepK
    rw [tile_point m c t _ (rowAt (t.val / 8) (hi t) r) r (fun l => by rw [mat_apply, hid_point]) cc, mat_apply]
    unfold startK kerPartial
    rw [blk0 m c t, blk6 m c t, h0]
    simp only [Nat.zero_add, Finset.sum_range_one]

/-- At a later point of a row block: the carried buffer is kept, and the result block gains the point's tile. -/
theorem point_B (t : Fin cfg0.N) (h0 : ¬t.val % 8 = 0)
    (ih2 : ∀ (r : Fin 1024) (l : Fin 4096), (outsAt0 m c (t.val - 1) (pred_lt t)).2 (ix2 r l)
      = kerH1 (gX m c) (gW1 m c) (gB1 m c) (rowAt ((t.val - 1) / 8) (hdiv _ (pred_lt t)) r) l)
    (ih1 : ∀ (r : Fin 1024) (cc : Fin 1024), (outsAt0 m c (t.val - 1) (pred_lt t)).1 (ix2 r cc)
      = kerPartial (gX m c) (gW1 m c) (gB1 m c) (gW2 m c) (gB2 m c) (gW3 m c) (gB3 m c) ((t.val - 1) % 8) (rowAt ((t.val - 1) / 8) (hdiv _ (pred_lt t)) r) cc) :
    (∀ (r : Fin 1024) (l : Fin 4096),
        (outsAt0 m c t.val t.isLt).2 (ix2 r l) = kerH1 (gX m c) (gW1 m c) (gB1 m c) (rowAt (t.val / 8) (hi t) r) l)
    ∧ (∀ (r : Fin 1024) (cc : Fin 1024),
        (outsAt0 m c t.val t.isLt).1 (ix2 r cc) = kerPartial (gX m c) (gW1 m c) (gB1 m c) (gW2 m c) (gB2 m c) (gW3 m c) (gB3 m c) (t.val % 8) (rowAt (t.val / 8) (hi t) r) cc) := by
  obtain ⟨e1, e2⟩ := Prod.ext_iff.mp (outsAt0_B m c t h0)
  dsimp only at e1 e2
  unfold sout0_B_0 at e2
  have hq : (t.val - 1) / 8 = t.val / 8 := by omega
  have hr : t.val % 8 = (t.val - 1) % 8 + 1 := by omega
  constructor
  · intro r l
    rw [e2, ih2, rowAt_congr hq _ (hi t)]
  · intro r cc
    rw [e1, out_B, mat_apply]
    unfold stepK
    rw [tile_point m c t _ (rowAt (t.val / 8) (hi t) r) r (fun l => by rw [ih2, rowAt_congr hq _ (hi t)]) cc, ih1,
      rowAt_congr hq _ (hi t)]
    unfold kerPartial
    rw [hr, Finset.sum_range_succ _ ((t.val - 1) % 8 + 1), add_assoc]

/-- After every point: the carried buffer holds the point's row block's first hidden layer, and the result block
    holds x + b3 plus the tiles up to the point's. -/
theorem fold : ∀ (n : ℕ) (h : n < cfg0.N),
    (∀ (r : Fin 1024) (l : Fin 4096),
        (outsAt0 m c n h).2 (ix2 r l) = kerH1 (gX m c) (gW1 m c) (gB1 m c) (rowAt (n / 8) (hdiv n h) r) l)
    ∧ (∀ (r : Fin 1024) (cc : Fin 1024),
        (outsAt0 m c n h).1 (ix2 r cc) = kerPartial (gX m c) (gW1 m c) (gB1 m c) (gW2 m c) (gB2 m c) (gW3 m c) (gB3 m c) (n % 8) (rowAt (n / 8) (hdiv n h) r) cc)
  | 0, h => point_A m c ⟨0, h⟩ (Nat.zero_mod 8)
  | n + 1, h => by
    by_cases h0 : (n + 1) % 8 = 0
    · exact point_A m c ⟨n + 1, h⟩ h0
    · exact point_B m c ⟨n + 1, h⟩ h0 (fold n (Nat.lt_of_succ_lt h)).1 (fold n (Nat.lt_of_succ_lt h)).2

/-- At the point that writes a row block back (the block's last) the result block is the kernel's result there. -/
theorem block_done (t : Fin cfg0.N) (h7 : t.val % 8 = 7) (r : Fin 1024) (cc : Fin 1024) :
    (outsAt0 m c t.val t.isLt).1 (ix2 r cc) = kerOut (gX m c) (gW1 m c) (gB1 m c) (gW2 m c) (gB2 m c) (gW3 m c) (gB3 m c) (ix2 (rowAt (t.val / 8) (hi t) r) cc) := by
  rw [(fold m c t.val t.isLt).2 r cc, h7]
  rfl

end Cert.KernelIdeal.Fold

end
-- ==== Proof.KernelValue.lean ====
/-
  The kernel's result array after the run.  Row block i of the array is written back once, after the block's last
  point 8·i + 7, from the result block — which by then holds the kernel's result on those rows.  The sixteen row
  blocks tile the array, so the array ends holding the kernel's result everywhere.
-/
import proofs.«162766_g14912126452479_cont_week2b_829_36_alg».proof.Proof.Fold
import proofs.«162766_g14912126452479_cont_week2b_829_36_alg».proof.Proof.Gen.KernelIdeal.Value

set_option maxRecDepth 16384

noncomputable section

namespace Cert.KernelIdeal.KValue

open Cert.KernelIdeal Cert.KernelIdeal.Gen Cert.KernelIdeal.Blocks Cert.KernelIdeal.Fold Cert.Mlp
open Idealize.ShloMosaic Idealize.ShloMosaic.ValueIdx Idealize.ShloMosaic.TcCoe Idealize.SL.Sem
open Idealize.ShloMosaic.Pipeline (Dat)

variable (m : (ℓ : Loc nD τ sig) → Buf (Elt Ideal) ℓ) (ρ : Dev nD → PrngReg) (c : Dev nD)

/-- The kernel's result as contents of the result array on core `c`. -/
abbrev result : Buf (Elt Ideal) ((c : Thread nD τ).loc main_v0) := kerOut (gX m c) (gW1 m c) (gB1 m c) (gW2 m c) (gB2 m c) (gW3 m c) (gB3 m c)

/-- What the last point of a row block writes back is that row block of the kernel's result. -/
theorem flushed_eq (t : Fin cfg0.N) (hf : (cfg0.win 7).flush t = true) :
    (dats m 0 c).flushed 7 t = ((cfg0.win 7).blk t).view.read (Elt Ideal) (result m c) := by
  have h7 : t.val % 8 = 7 := (flush0_7 t).mp hf
  rw [Cert.KernelIdeal.Value.flushed7]
  funext j
  obtain ⟨r, cc, rfl⟩ : ∃ (r : Fin 1024) (cc : Fin 1024), j = ix2 r cc := ⟨j 0, j 1, eq_ix2 j⟩
  rw [View.read_apply]
  show (outsAt0 m c t.val t.isLt).1 (ix2 r cc) = kerOut (gX m c) (gW1 m c) (gB1 m c) (gW2 m c) (gB2 m c) (gW3 m c) (gB3 m c) (((cfg0.win 7).blk t).view.emb (ix2 r cc))
  rw [block_done m c t h7 r cc]
  refine congrArg (kerOut (gX m c) (gW1 m c) (gB1 m c) (gW2 m c) (gB2 m c) (gW3 m c) (gB3 m c)) ?_
  obtain ⟨e0, e1⟩ := idx7 t
  funext a
  apply Fin.ext
  match a with
  | ⟨0, _⟩ => show 1024 * (t.val / 8) + r.val = win0_7.index t 0 * 1024 + 1 * r.val; rw [e0]; omega
  | ⟨1, _⟩ => show cc.val = win0_7.index t 1 * 1024 + 1 * cc.val; rw [e1]; omega

/-- An entry of the array is in point `t`'s block when each coordinate is in the block's range on its axis. -/
theorem mem_blk (t : Fin cfg0.N) (i : S16384x1024.Idx) :
    i ∈ ((cfg0.win 7).blk t).view.set ↔ ∀ a : Fin 2, win0_7.index t a * S1024x1024.size a ≤ (i a).val
      ∧ (i a).val < win0_7.index t a * S1024x1024.size a + S1024x1024.size a := by
  show i ∈ ((View.whole main_v0).slice (win0_7.rect t)).set ↔ _
  rw [View.set_slice_whole, Rect.mem_set_unit]
  exact Iff.rfl

/-- Every entry of the array lies in the block some row block's last point writes back. -/
theorem cover (i : S16384x1024.Idx) :
    ∃ t : Fin cfg0.N, (cfg0.win 7).flush t = true ∧ i ∈ ((cfg0.win 7).blk t).view.set := by
  have hi0 : (i 0).val < 16384 := (i 0).isLt
  have hi1 : (i 1).val < 1024 := (i 1).isLt
  have hN : cfg0.N = 128 := N_0
  have ht : 8 * ((i 0).val / 1024) + 7 < cfg0.N := by omega
  refine ⟨⟨8 * ((i 0).val / 1024) + 7, ht⟩, (flush0_7 _).mpr (by show (8 * ((i 0).val / 1024) + 7) % 8 = 7; omega), ?_⟩
  rw [mem_blk]
  obtain ⟨e0, e1⟩ := idx7 ⟨8 * ((i 0).val / 1024) + 7, ht⟩
  intro a
  match a with
  | ⟨0, _⟩ =>
    show win0_7.index ⟨8 * ((i 0).val / 1024) + 7, ht⟩ 0 * 1024 ≤ (i 0).val
      ∧ (i 0).val < win0_7.index ⟨8 * ((i 0).val / 1024) + 7, ht⟩ 0 * 1024 + 1024
    rw [e0]
    show (8 * ((i 0).val / 1024) + 7) / 8 * 1024 ≤ (i 0).val ∧ (i 0).val < (8 * ((i 0).val / 1024) + 7) / 8 * 1024 + 1024
    omega
  | ⟨1, _⟩ =>
    show win0_7.index ⟨8 * ((i 0).val / 1024) + 7, ht⟩ 1 * 1024 ≤ (i 1).val
      ∧ (i 1).val < win0_7.index ⟨8 * ((i 0).val / 1024) + 7, ht⟩ 1 * 1024 + 1024
    rw [e1]
    omega

/-- So the result array ends holding the kernel's result. -/
theorem final : (dats m 0 c).arrAt 7 cfg0.N = result m c :=
  (dats m 0 c).arrAt_eq_of_cover 7 (result m c) (flushed_eq m c) (cover)

/-- The kernel's run, read: the result array at the kernel's result, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩)
    (Cert.KernelIdeal.Value.run_blocks m ρ)

end Cert.KernelIdeal.KValue

end
-- ==== Proof.RefValue.lean ====
/-
  The reference program's result, read one operation at a time, is the three-layer perceptron `refOut` of the
  seven argument arrays: each operation's value at an index is read from its operands at an index (the generated
  reading lemmas), the index functions of the contractions and broadcasts are the row/column indices one expects,
  and at extended reals the float operations are +, * and max.
-/
import proofs.«162766_g14912126452479_cont_week2b_829_36_alg».proof.Proof.Spec
import proofs.«162766_g14912126452479_cont_week2b_829_36_alg».proof.Proof.Gen.ReferenceIdeal.Read

noncomputable section

namespace Cert.Mlp.Ref

open Cert.ReferenceIdeal Cert.ReferenceIdeal.Read Idealize.ShloMosaic Idealize.ShloMosaic.ValueIdx

/-! ## The index functions at a row/column pair -/

theorem lidx_v1 (r : Fin 16384) (l : Fin 4096) (k : Fin 1024) : lidx_main_v1 (ix2 r l) k = ix2 r k :=
  funext fun a => Fin.ext (by match a with | ⟨0, _⟩ => rfl | ⟨1, _⟩ => rfl)

theorem ridx_v1 (r : Fin 16384) (l : Fin 4096) (k : Fin 1024) : ridx_main_v1 (ix2 r l) k = ix2 k l :=
  funext fun a => Fin.ext (by match a with | ⟨0, _⟩ => rfl | ⟨1, _⟩ => rfl)

theorem idx_v3 (r : Fin 16384) (l : Fin 4096) : idx_main_v2 (idx_main_v3 (ix2 r l)) = ix1 l :=
  funext fun a => Fin.ext (by match a with | ⟨0, _⟩ => rfl)

theorem lidx_v6 (r : Fin 16384) (k : Fin 4096) (l : Fin 4096) : lidx_main_v6 (ix2 r k) l = ix2 r l :=
  funext fun a => Fin.ext (by match a with | ⟨0, _⟩ => rfl | ⟨1, _⟩ => rfl)

theorem ridx_v6 (r : Fin 16384) (k : Fin 4096) (l : Fin 4096) : ridx_main_v6 (ix2 r k) l = ix2 l k :=
  funext fun a => Fin.ext (by match a with | ⟨0, _⟩ => rfl | ⟨1, _⟩ => rfl)

theorem idx_v8 (r : Fin 16384) (k : Fin 4096) : idx_main_v7 (idx_main_v8 (ix2 r k)) = ix1 k :=
  funext fun a => Fin.ext (by match a with | ⟨0, _⟩ => rfl)

theorem lidx_v11 (r : Fin 16384) (c : Fin 1024) (k : Fin 4096) : lidx_main_v11 (ix2 r c) k = ix2 r k :=
  funext fun a => Fin.ext (by match a with | ⟨0, _⟩ => rfl | ⟨1, _⟩ => rfl)

theorem ridx_v11 (r : Fin 16384) (c : Fin 1024) (k : Fin 4096) : ridx_main_v11 (ix2 r c) k = ix2 k c :=
  funext fun a => Fin.ext (by match a with | ⟨0, _⟩ => rfl | ⟨1, _⟩ => rfl)

theorem idx_v13 (r : Fin 16384) (c : Fin 1024) : idx_main_v12 (idx_main_v13 (ix2 r c)) = ix1 c :=
  funext fun a => Fin.ext (by match a with | ⟨0, _⟩ => rfl)

section Layers

variable (x0 : (⟨S16384x1024, .f32⟩ : BufTy).Contents (Elt Ideal)) (x1 : (⟨S1024x4096, .f32⟩ : BufTy).Contents (Elt Ideal))
  (x2 : (⟨S4096, .f32⟩ : BufTy).Contents (Elt Ideal)) (x3 : (⟨S4096x4096, .f32⟩ : BufTy).Contents (Elt Ideal))
  (x4 : (⟨S4096, .f32⟩ : BufTy).Contents (Elt Ideal)) (x5 : (⟨S4096x1024, .f32⟩ : BufTy).Contents (Elt Ideal))
  (x6 : (⟨S1024, .f32⟩ : BufTy).Contents (Elt Ideal))

/-- The first hidden layer: the value after the first maximum, at row `r` and hidden unit `l`. -/
theorem v5_eq (r : Fin 16384) (l : Fin 4096) :
    val_main_v5 (F := Ideal) x0 x1 x2 (ix2 r l) = refH1 x0 x1 x2 r l := by
  rw [val_main_v5_apply, val_main_v4_apply, val_main_v1_apply, val_main_v3_apply, val_main_v2_apply,
    val_main_call0_v0_apply, val_main_call0_cst_apply, idx_v3]
  simp only [val_main_v0_apply, lidx_v1, ridx_v1, Ideal.addf_def, Ideal.maximumf_def, Ideal.ofBits_def]
  rfl

/-- The second hidden layer: the value after the second maximum, at row `r` and hidden unit `k`. -/
theorem v10_eq (r : Fin 16384) (k : Fin 4096) :
    val_main_v10 (F := Ideal) x0 x1 x2 x3 x4 (ix2 r k) = refH2 x0 x1 x2 x3 x4 r k := by
  rw [val_main_v10_apply, val_main_v9_apply, val_main_v6_apply, val_main_v8_apply, val_main_v7_apply,
    val_main_call1_v0_apply, val_main_call1_cst_apply, idx_v8]
  simp only [lidx_v6, ridx_v6, v5_eq, Ideal.addf_def, Ideal.maximumf_def, Ideal.ofBits_def]
  rfl

/-- The reference's result is the three-layer perceptron with the residual connection. -/
theorem ref_eq_refOut :
    val_main_v15 (F := Ideal) x0 x1 x2 x3 x4 x5 x6 = Cert.Mlp.refOut x0 x1 x2 x3 x4 x5 x6 := by
  funext i
  obtain ⟨r, c, rfl⟩ : ∃ (r : Fin 16384) (c : Fin 1024), i = ix2 r c := ⟨i 0, i 1, eq_ix2 i⟩
  rw [val_main_v15_apply, val_main_v14_apply, val_main_v11_apply, val_main_v13_apply, val_main_v12_apply, idx_v13]
  simp only [lidx_v11, ridx_v11, v10_eq, Ideal.addf_def]
  rfl

end Layers

end Cert.Mlp.Ref

end
-- ==== Proof.LibTileSum.lean ====
/-
  A sum over J consecutive tiles of R entries each is the sum over all J * R entries.

  For `f : ℕ → M` into any additive commutative monoid (the extended reals among them), any tile length `R` and any
  number of tiles `J`:

    `tile_sum` :  Σ_{j < J} Σ_{r : Fin R} f (j * R + r) = Σ_{s : Fin (J * R)} f s.

  This is pure reindexing (the position `s` is `j * R + r` with `j = s / R`, `r = s % R`); no property of the
  summands is used.  `tile_sum_range` is the same with both sides as sums over ranges of naturals, and
  `tile_sum_fin` has the outer sum over `Fin J`.
-/
import Mathlib.Algebra.BigOperators.Fin
import Mathlib.Algebra.BigOperators.Intervals

open scoped BigOperators

namespace Cert.LibTileSum

variable {M : Type*} [AddCommMonoid M]

/-- Both sides over ranges of naturals: Σ_{j < J} Σ_{r < R} f (j * R + r) = Σ_{s < J * R} f s. -/
theorem tile_sum_range (R : ℕ) (f : ℕ → M) (J : ℕ) :
    ∑ j ∈ Finset.range J, ∑ r ∈ Finset.range R, f (j * R + r) = ∑ s ∈ Finset.range (J * R), f s := by
  induction J with
  | zero => simp
  | succ J ih =>
    rw [Finset.sum_range_succ, ih, Nat.succ_mul, Finset.sum_range_add]

/-- A sum over J consecutive tiles of R entries each is the sum over all J * R entries. -/
theorem tile_sum (R : ℕ) (f : ℕ → M) (J : ℕ) :
    (Finset.range J).sum (fun j => ∑ r : Fin R, f (j * R + r.val)) = ∑ s : Fin (J * R), f s.val := by
  rw [Fin.sum_univ_eq_sum_range (fun s => f s) (J * R), ← tile_sum_range R f J]
  refine Finset.sum_congr rfl fun j _ => ?_
  exact Fin.sum_univ_eq_sum_range (fun r => f (j * R + r)) R

/-- The same with the outer sum over `Fin J`. -/
theorem tile_sum_fin (R : ℕ) (f : ℕ → M) (J : ℕ) :
    ∑ j : Fin J, ∑ r : Fin R, f (j.val * R + r.val) = ∑ s : Fin (J * R), f s.val := by
  rw [← tile_sum R f J]
  exact Fin.sum_univ_eq_sum_range (fun j => ∑ r : Fin R, f (j * R + r.val)) J

end Cert.LibTileSum
-- ==== Proof.Algebra.lean ====
/-
  The kernel's arrangement of the three-layer perceptron equals the reference's, as functions of the seven
  argument arrays over the extended reals.

  Three facts, none of which needs any entry to be finite:
    * the float word 2.0 denotes the real number 2, and 2 · x = x + x for every extended real x
      (checked at ⊥, at a real, and at ⊤), so the two first hidden layers agree entry by entry;
    * the eight tiles of 512 consecutive hidden units add up to the sum over all 4096 hidden units
      (pure reindexing), and below 4096 the kernel's term at position q is the reference's second hidden
      layer at q times the third layer's weight;
    * (x + b) + S = x + (S + b), since addition of extended reals is commutative and associative.
  The word +0.0 under the maxima is the same word on both sides and is never evaluated.
-/
import proofs.«162766_g14912126452479_cont_week2b_829_36_alg».proof.Proof.Spec
import proofs.«162766_g14912126452479_cont_week2b_829_36_alg».proof.Proof.LibTileSum
import Mathlib.Data.EReal.Operations

noncomputable section

namespace Cert.Mlp

open Idealize.ShloMosaic Idealize.ShloMosaic.ValueIdx

/-- The float word `2.0` denotes the real number 2. -/
theorem twoW_eq : twoW = ((2 : ℝ) : EReal) := by
  simp [Ideal.ofBits, Ideal.ieee, -EReal.coe_mul]; norm_num

/-- Doubling by the factor 2 is adding a number to itself, for every extended real. -/
theorem two_mul_eq_add (x : EReal) : twoW * x = x + x := by
  rw [twoW_eq]
  induction x using EReal.rec with
  | bot => rw [EReal.coe_mul_bot_of_pos (by norm_num : (0 : ℝ) < 2), EReal.bot_add]
  | coe x => rw [← EReal.coe_mul, ← EReal.coe_add, two_mul]
  | top => rw [EReal.coe_mul_top_of_pos (by norm_num : (0 : ℝ) < 2), EReal.top_add_top]

section Whole

variable (X : Mat 16384 1024) (W1 : Mat 1024 4096) (B1 : Row 4096) (W2 : Mat 4096 4096) (B2 : Row 4096)
  (W3 : Mat 4096 1024) (B3 : Row 1024)

/-- The two first hidden layers agree entry by entry. -/
theorem kerH1_eq_refH1 (r : Fin 16384) (l : Fin 4096) : kerH1 X W1 B1 r l = refH1 X W1 B1 r l := by
  unfold kerH1 refH1
  congr 2
  refine Finset.sum_congr rfl fun p _ => ?_
  rw [two_mul_eq_add]

/-- Below 4096 the kernel's term at position `q` is the reference's second hidden layer at `q` times the third
    layer's weight towards column `c`. -/
theorem kerTerm_eq (r : Fin 16384) (c : Fin 1024) (q : Fin 4096) :
    kerTerm X W1 B1 W2 B2 W3 r c q.val = refH2 X W1 B1 W2 B2 r q * W3 (ix2 q c) := by
  unfold kerTerm refH2
  rw [dif_pos q.isLt]
  simp only [kerH1_eq_refH1, Fin.eta]

/-- The eight tiles of 512 hidden units add up to the sum over all 4096 hidden units. -/
theorem tiles_eq (r : Fin 16384) (c : Fin 1024) :
    ∑ s ∈ Finset.range (7 + 1), ∑ k : Fin 512, kerTerm X W1 B1 W2 B2 W3 r c (s * 512 + k.val)
      = ∑ q : Fin 4096, refH2 X W1 B1 W2 B2 r q * W3 (ix2 q c) := by
  have h := Cert.LibTileSum.tile_sum 512 (kerTerm X W1 B1 W2 B2 W3 r c) 8
  have h' : ∑ s ∈ Finset.range (7 + 1), ∑ k : Fin 512, kerTerm X W1 B1 W2 B2 W3 r c (s * 512 + k.val)
      = ∑ q : Fin 4096, kerTerm X W1 B1 W2 B2 W3 r c q.val := h
  rw [h']
  exact Finset.sum_congr rfl fun q _ => kerTerm_eq X W1 B1 W2 B2 W3 r c q

/-- The kernel's arrangement computes the reference's result. -/
theorem kerOut_eq_refOut : kerOut X W1 B1 W2 B2 W3 B3 = refOut X W1 B1 W2 B2 W3 B3 := by
  funext i
  obtain ⟨r, c, rfl⟩ : ∃ (r : Fin 16384) (c : Fin 1024), i = ix2 r c := ⟨i 0, i 1, eq_ix2 i⟩
  unfold kerOut refOut
  rw [mat_apply, mat_apply]
  unfold kerPartial
  rw [tiles_eq, add_assoc, add_comm (B3 _)]

end Whole

end Cert.Mlp

end
-- ==== Proof.lean ====
/-
  The claim: a fused kernel for a three-layer perceptron with a residual connection,

      out = x + ( relu( relu( (x + x) · W1 + b1 ) · W2 + b2 ) · W3 + b3 ),

  against its plain reference, over the extended reals.

  The kernel works on sixteen blocks of 1024 rows, eight grid points per block.  At a block's first point it fills a
  carried buffer with the block's first hidden layer relu((2·x)·W1 + b1) and starts the result block at x + b3; at each of
  the eight points it adds relu(h1 · W2[:, tile] + b2[tile]) · W3[tile, :] for one tile of 512 hidden units; after the
  eighth point the result block is written back.  By induction along the grid points (Proof/Fold.lean, over the two
  control cases' values in Proof/CaseValues.lean and Proof/CaseStart.lean and the payloads in Proof/Payloads.lean) the
  result array ends holding `kerOut` of the argument arrays (Proof/KernelValue.lean), the reference's ends holding
  `refOut` (Proof/RefValue.lean), and the two are one function (Proof/Algebra.lean): 2·x = x + x on every extended
  real, a sum over 4096 hidden units is the sum of its eight tiles, and addition is commutative and associative —
  no entry needs to be finite, so the precondition is never opened.  The three frames are the generated frame runs,
  and the idealization rewrote nothing.
-/
import proofs.«162766_g14912126452479_cont_week2b_829_36_alg».proof.Defs
import proofs.«162766_g14912126452479_cont_week2b_829_36_alg».proof.Proof.Gen.Kernel
import proofs.«162766_g14912126452479_cont_week2b_829_36_alg».proof.Proof.Gen.Kernel.Skeleton
import proofs.«162766_g14912126452479_cont_week2b_829_36_alg».proof.Proof.Gen.Kernel.Launch
import proofs.«162766_g14912126452479_cont_week2b_829_36_alg».proof.Proof.Gen.Kernel.Points
import proofs.«162766_g14912126452479_cont_week2b_829_36_alg».proof.Proof.Gen.Kernel.Frame
import proofs.«162766_g14912126452479_cont_week2b_829_36_alg».proof.Proof.Gen.KernelIdeal
import proofs.«162766_g14912126452479_cont_week2b_829_36_alg».proof.Proof.Gen.KernelIdeal.Skeleton
import proofs.«162766_g14912126452479_cont_week2b_829_36_alg».proof.Proof.Gen.KernelIdeal.Launch
import proofs.«162766_g14912126452479_cont_week2b_829_36_alg».proof.Proof.Gen.KernelIdeal.Points
import proofs.«162766_g14912126452479_cont_week2b_829_36_alg».proof.Proof.Gen.KernelIdeal.Frame
import proofs.«162766_g14912126452479_cont_week2b_829_36_alg».proof.Proof.Gen.ReferenceIdeal
import proofs.«162766_g14912126452479_cont_week2b_829_36_alg».proof.Proof.Gen.KernelIdeal.Value
import proofs.«162766_g14912126452479_cont_week2b_829_36_alg».proof.Proof.Gen.ReferenceIdeal.Run
import proofs.«162766_g14912126452479_cont_week2b_829_36_alg».proof.Proof.Gen.ReferenceIdeal.Read
import proofs.«162766_g14912126452479_cont_week2b_829_36_alg».proof.Proof.Gen.Pre_finite_inputs
import proofs.«162766_g14912126452479_cont_week2b_829_36_alg».proof.Proof.KernelValue
import proofs.«162766_g14912126452479_cont_week2b_829_36_alg».proof.Proof.RefValue
import proofs.«162766_g14912126452479_cont_week2b_829_36_alg».proof.Proof.Algebra
import Idealize.ShloMosaic.Adequacy
import Idealize.ShloMosaic.Init

noncomputable section

namespace Cert.Proof

open Idealize.ShloMosaic Idealize.ShloMosaic.TcCoe Idealize.SL.Sem

/-- The word-level kernel runs and leaves its arguments alone. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- So does the reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the same result array: the kernel's is `kerOut` of its arguments, the reference's is
    `refOut` of arguments that agree, and the two functions are equal. -/
theorem algebraic : Cert.algebraic_KernelIdeal_ReferenceIdeal := by
  intro m ρ m' ρ' _ hagree
  refine ⟨fun c => Cert.KernelIdeal.KValue.result m c, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2.1,
    (hagree c).2.2.2.2.2.1, (hagree c).2.2.2.2.2.2]
  exact (Cert.ReferenceIdeal.Read.val_main_v15_eq _ _ _ _ _ _ _).trans
    ((Cert.Mlp.Ref.ref_eq_refOut _ _ _ _ _ _ _).trans (Cert.Mlp.kerOut_eq_refOut _ _ _ _ _ _ _).symm)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
